-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S1000000 : Shape := ⟨1, ![1000000]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part5 {F : FTy → Type} [FloatOps F] (main_arg24 : FVec F S32x32 .f32) (main_arg25 : FVec F S32 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32x32 .f32 := Host.absf main_arg24
  let main_cst_34 : FVec F S_ .f32 := constant S_ .f32 0x7F800000#32
  let main_v90 : FVec F S32x32 .f32 := broadcastInDim S32x32 ![] bcast_S_S32x32 main_cst_34
  let main_v91 : IVec S32x32 1 := cmpf .olt main_v89 main_v90
  let main_c_35 : IVec S_ 1 := constantI S_ 1 1#1
  let main_v92 : IVec S_ 1 := (fun x v => Host.reduce IntOp.andi x v reducesTo_S32x32_S_d0_1 h_S_) main_v91 main_c_35
  let main_v93 : IVec S_ 1 := andi main_v88 main_v92
  let main_v94 : FVec F S32 .f32 := Host.absf main_arg25
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  main_v98

def fn_part4 {F : FTy → Type} [FloatOps F] (main_arg20 : FVec F S32x32 .f32) (main_arg21 : FVec F S32x32 .f32) (main_arg22 : FVec F S32 .f32) (main_arg23 : FVec F S32x32 .f32) (main_arg24 : FVec F S32x32 .f32) (main_arg25 : FVec F S32 .f32) (main_v63 : IVec S_ 1) (main_v67 : IVec S_ 1) : IVec S_ 1 :=
  let main_v68 : IVec S_ 1 := andi main_v63 main_v67
  let main_v69 : FVec F S32x32 .f32 := Host.absf main_arg20
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32x32 .f32 := Host.absf main_arg21
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg22
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg23
  let main_cst_32 : FVec F S_ .f32 := constant S_ .f32 0x7F800000#32
  fn_part5 (F := F) main_arg24 main_arg25 main_v83 main_v84 main_cst_32

def fn_part3 {F : FTy → Type} [FloatOps F] (main_arg17 : FVec F S32x32 .f32) (main_arg18 : FVec F S32x32 .f32) (main_arg19 : FVec F S32 .f32) (main_arg20 : FVec F S32x32 .f32) (main_arg21 : FVec F S32x32 .f32) (main_arg22 : FVec F S32 .f32) (main_arg23 : FVec F S32x32 .f32) (main_arg24 : FVec F S32x32 .f32) (main_arg25 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg17
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32x32 .f32 := Host.absf main_arg18
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg19
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg20 main_arg21 main_arg22 main_arg23 main_arg24 main_arg25 main_v63 main_v67

def fn_part2 {F : FTy → Type} [FloatOps F] (main_arg13 : FVec F S32 .f32) (main_arg14 : FVec F S64x32 .f32) (main_arg15 : FVec F S64x32 .f32) (main_arg16 : FVec F S32 .f32) (main_arg17 : FVec F S32x32 .f32) (main_arg18 : FVec F S32x32 .f32) (main_arg19 : FVec F S32 .f32) (main_arg20 : FVec F S32x32 .f32) (main_arg21 : FVec F S32x32 .f32) (main_arg22 : FVec F S32 .f32) (main_arg23 : FVec F S32x32 .f32) (main_arg24 : FVec F S32x32 .f32) (main_arg25 : FVec F S32 .f32) (main_v33 : IVec S_ 1) : IVec S_ 1 :=
  let main_v34 : FVec F S32 .f32 := Host.absf main_arg13
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg14
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S64x32 .f32 := Host.absf main_arg15
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg16
  let main_cst_18 : FVec F S_ .f32 := constant S_ .f32 0x7F800000#32
  let main_v50 : FVec F S32 .f32 := broadcastInDim S32 ![] bcast_S_S32 main_cst_18
  fn_part3 (F := F) main_arg17 main_arg18 main_arg19 main_arg20 main_arg21 main_arg22 main_arg23 main_arg24 main_arg25 main_v48 main_v49 main_v50

def fn_part1 {F : FTy → Type} [FloatOps F] (main_arg10 : FVec F S32 .f32) (main_arg11 : FVec F S64x32 .f32) (main_arg12 : FVec F S64x32 .f32) (main_arg13 : FVec F S32 .f32) (main_arg14 : FVec F S64x32 .f32) (main_arg15 : FVec F S64x32 .f32) (main_arg16 : FVec F S32 .f32) (main_arg17 : FVec F S32x32 .f32) (main_arg18 : FVec F S32x32 .f32) (main_arg19 : FVec F S32 .f32) (main_arg20 : FVec F S32x32 .f32) (main_arg21 : FVec F S32x32 .f32) (main_arg22 : FVec F S32 .f32) (main_arg23 : FVec F S32x32 .f32) (main_arg24 : FVec F S32x32 .f32) (main_arg25 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg10
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg11
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64x32 .f32 := Host.absf main_arg12
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_v33

def fn {F : FTy → Type} [FloatOps F] (main_arg0 : FVec F S200000x64 .f32) (main_arg1 : FVec F S100000x64 .f32) (main_arg2 : IVec S1000000 32) (main_arg3 : IVec S1000000 32) (main_arg4 : IVec S1000000 32) (main_arg5 : IVec S1000000 32) (main_arg6 : IVec S1000000 32) (main_arg7 : IVec S1000000 32) (main_arg8 : FVec F S64x32 .f32) (main_arg9 : FVec F S64x32 .f32) (main_arg10 : FVec F S32 .f32) (main_arg11 : FVec F S64x32 .f32) (main_arg12 : FVec F S64x32 .f32) (main_arg13 : FVec F S32 .f32) (main_arg14 : FVec F S64x32 .f32) (main_arg15 : FVec F S64x32 .f32) (main_arg16 : FVec F S32 .f32) (main_arg17 : FVec F S32x32 .f32) (main_arg18 : FVec F S32x32 .f32) (main_arg19 : FVec F S32 .f32) (main_arg20 : FVec F S32x32 .f32) (main_arg21 : FVec F S32x32 .f32) (main_arg22 : FVec F S32 .f32) (main_arg23 : FVec F S32x32 .f32) (main_arg24 : FVec F S32x32 .f32) (main_arg25 : FVec F S32 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x32 .f32 := Host.absf main_arg8
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x32 .f32 := Host.absf main_arg9
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S200000x64 : Shape := ⟨2, ![200000, 64]⟩
abbrev S100000x64 : Shape := ⟨2, ![100000, 64]⟩
abbrev S1000000 : Shape := ⟨1, ![1000000]⟩
abbrev S64x32 : Shape := ⟨2, ![64, 32]⟩
abbrev S32 : Shape := ⟨1, ![32]⟩
abbrev S32x32 : Shape := ⟨2, ![32, 32]⟩
abbrev S_ : Shape := ⟨0, ![]⟩
abbrev S1000000x1 : Shape := ⟨2, ![1000000, 1]⟩
abbrev S1000000x64 : Shape := ⟨2, ![1000000, 64]⟩
abbrev S200000 : Shape := ⟨1, ![200000]⟩
abbrev S200000x1 : Shape := ⟨2, ![200000, 1]⟩
abbrev S100000 : Shape := ⟨1, ![100000]⟩
abbrev S100000x1 : Shape := ⟨2, ![100000, 1]⟩
abbrev S200000x32 : Shape := ⟨2, ![200000, 32]⟩
abbrev S5000x64 : Shape := ⟨2, ![5000, 64]⟩
abbrev S5000x32 : Shape := ⟨2, ![5000, 32]⟩
abbrev S1x32 : Shape := ⟨2, ![1, 32]⟩
abbrev S100000x32 : Shape := ⟨2, ![100000, 32]⟩
abbrev S1000000x32 : Shape := ⟨2, ![1000000, 32]⟩

abbrev nBuf : Space → Nat
  | .hbm => 154
  | .vmem => 37
  | .smem => 0
  | _ => 0

abbrev hbmTy0_0 (i : Nat) : BufTy := match i % 128 with
  | 0 => ⟨S200000x64, .f32⟩
  | 1 => ⟨S100000x64, .f32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S64x32, .f32⟩
  | 9 => ⟨S64x32, .f32⟩
  | 10 => ⟨S32, .f32⟩
  | 11 => ⟨S64x32, .f32⟩
  | 12 => ⟨S64x32, .f32⟩
  | 13 => ⟨S32, .f32⟩
  | 14 => ⟨S64x32, .f32⟩
  | 15 => ⟨S64x32, .f32⟩
  | 16 => ⟨S32, .f32⟩
  | 17 => ⟨S32x32, .f32⟩
  | 18 => ⟨S32x32, .f32⟩
  | 19 => ⟨S32, .f32⟩
  | 20 => ⟨S32x32, .f32⟩
  | 21 => ⟨S32x32, .f32⟩
  | 22 => ⟨S32, .f32⟩
  | 23 => ⟨S32x32, .f32⟩
  | 24 => ⟨S32x32, .f32⟩
  | 25 => ⟨S32, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S_, .f32⟩
  | 36 => ⟨S200000x64, .f32⟩
  | 37 => ⟨S1000000x1, .i32⟩
  | 38 => ⟨S200000x64, .f32⟩
  | 39 => ⟨S_, .f32⟩
  | 40 => ⟨S1000000, .f32⟩
  | 41 => ⟨S_, .f32⟩
  | 42 => ⟨S200000, .f32⟩
  | 43 => ⟨S1000000x1, .i32⟩
  | 44 => ⟨S200000, .f32⟩
  | 45 => ⟨S_, .f32⟩
  | 46 => ⟨S200000, .f32⟩
  | 47 => ⟨S200000, .f32⟩
  | 48 => ⟨S200000x1, .f32⟩
  | 49 => ⟨S200000x64, .f32⟩
  | 50 => ⟨S200000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x64, .f32⟩
  | 60 => ⟨S_, .f32⟩
  | 61 => ⟨S200000x64, .f32⟩
  | 62 => ⟨S1000000x1, .i32⟩
  | 63 => ⟨S200000x64, .f32⟩
  | 64 => ⟨S_, .f32⟩
  | 65 => ⟨S1000000, .f32⟩
  | 66 => ⟨S_, .f32⟩
  | 67 => ⟨S200000, .f32⟩
  | 68 => ⟨S1000000x1, .i32⟩
  | 69 => ⟨S200000, .f32⟩
  | 70 => ⟨S_, .f32⟩
  | 71 => ⟨S200000, .f32⟩
  | 72 => ⟨S200000, .f32⟩
  | 73 => ⟨S200000x1, .f32⟩
  | 74 => ⟨S200000x64, .f32⟩
  | 75 => ⟨S200000x64, .f32⟩
  | 76 => ⟨S_, .i32⟩
  | 77 => ⟨S1000000, .i32⟩
  | 78 => ⟨S1000000, .i1⟩
  | 79 => ⟨S_, .i32⟩
  | 80 => ⟨S1000000, .i32⟩
  | 81 => ⟨S1000000, .i32⟩
  | 82 => ⟨S1000000, .i32⟩
  | 83 => ⟨S1000000x1, .i32⟩
  | 84 => ⟨S1000000x64, .f32⟩
  | 85 => ⟨S_, .f32⟩
  | 86 => ⟨S100000x64, .f32⟩
  | 87 => ⟨S1000000x1, .i32⟩
  | 88 => ⟨S100000x64, .f32⟩
  | 89 => ⟨S_, .f32⟩
  | 90 => ⟨S1000000, .f32⟩
  | 91 => ⟨S_, .f32⟩
  | 92 => ⟨S100000, .f32⟩
  | 93 => ⟨S1000000x1, .i32⟩
  | 94 => ⟨S100000, .f32⟩
  | 95 => ⟨S_, .f32⟩
  | 96 => ⟨S100000, .f32⟩
  | 97 => ⟨S100000, .f32⟩
  | 98 => ⟨S100000x1, .f32⟩
  | 99 => ⟨S100000x64, .f32⟩
  | 100 => ⟨S100000x64, .f32⟩
  | 101 => ⟨S200000x32, .f32⟩
  | 102 => ⟨S100000x32, .f32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x32, .f32⟩
  | 112 => ⟨S_, .f32⟩
  | 113 => ⟨S200000x32, .f32⟩
  | 114 => ⟨S1000000x1, .i32⟩
  | 115 => ⟨S200000x32, .f32⟩
  | 116 => ⟨S_, .f32⟩
  | 117 => ⟨S1000000, .f32⟩
  | 118 => ⟨S_, .f32⟩
  | 119 => ⟨S200000, .f32⟩
  | 120 => ⟨S1000000x1, .i32⟩
  | 121 => ⟨S200000, .f32⟩
  | 122 => ⟨S_, .f32⟩
  | 123 => ⟨S200000, .f32⟩
  | 124 => ⟨S200000, .f32⟩
  | 125 => ⟨S200000x1, .f32⟩
  | 126 => ⟨S200000x32, .f32⟩
  | 127 => ⟨S200000x32, .f32⟩
  | _ => ⟨S200000x64, .f32⟩

abbrev hbmTy0_1 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x32, .f32⟩
  | 9 => ⟨S_, .f32⟩
  | 10 => ⟨S200000x32, .f32⟩
  | 11 => ⟨S1000000x1, .i32⟩
  | 12 => ⟨S200000x32, .f32⟩
  | 13 => ⟨S_, .f32⟩
  | 14 => ⟨S1000000, .f32⟩
  | 15 => ⟨S_, .f32⟩
  | 16 => ⟨S200000, .f32⟩
  | 17 => ⟨S1000000x1, .i32⟩
  | 18 => ⟨S200000, .f32⟩
  | 19 => ⟨S_, .f32⟩
  | 20 => ⟨S200000, .f32⟩
  | 21 => ⟨S200000, .f32⟩
  | 22 => ⟨S200000x1, .f32⟩
  | 23 => ⟨S200000x32, .f32⟩
  | 24 => ⟨S200000x32, .f32⟩
  | 25 => ⟨S200000x32, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x32, .f32⟩
  | .local _ .vmem, ⟨7, _⟩ => ⟨S64x32, .f32⟩
  | .local _ .vmem, ⟨8, _⟩ => ⟨S32, .f32⟩
  | .local _ .vmem, ⟨9, _⟩ => ⟨S64x32, .f32⟩
  | .local _ .vmem, ⟨10, _⟩ => ⟨S64x32, .f32⟩
  | .local _ .vmem, ⟨11, _⟩ => ⟨S32, .f32⟩
  | .local _ .vmem, ⟨12, _⟩ => ⟨S5000x32, .f32⟩
  | .local _ .vmem, ⟨13, _⟩ => ⟨S5000x32, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x32, .f32⟩
  | .local _ .vmem, ⟨19, _⟩ => ⟨S64x32, .f32⟩
  | .local _ .vmem, ⟨20, _⟩ => ⟨S32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S32x32, .f32⟩
  | .local _ .vmem, ⟨30, _⟩ => ⟨S32x32, .f32⟩
  | .local _ .vmem, ⟨31, _⟩ => ⟨S32, .f32⟩
  | .local _ .vmem, ⟨32, _⟩ => ⟨S32x32, .f32⟩
  | .local _ .vmem, ⟨33, _⟩ => ⟨S32x32, .f32⟩
  | .local _ .vmem, ⟨34, _⟩ => ⟨S32, .f32⟩
  | .local _ .vmem, ⟨35, _⟩ => ⟨S5000x32, .f32⟩
  | .local _ .vmem, ⟨36, _⟩ => ⟨S5000x32, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_4 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_6 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_7 : Ref sig .tc := ⟨.hbm, 64, rfl⟩
abbrev main_v29 : Ref sig .tc := ⟨.hbm, 65, rfl⟩
abbrev main_cst_8 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_10 : Ref sig .tc := ⟨.hbm, 76, rfl⟩
abbrev main_v38 : Ref sig .tc := ⟨.hbm, 77, rfl⟩
abbrev main_v39 : Ref sig .tc := ⟨.hbm, 78, rfl⟩
abbrev main_c_11 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_12 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_13 : Ref sig .tc := ⟨.hbm, 89, rfl⟩
abbrev main_v48 : Ref sig .tc := ⟨.hbm, 90, rfl⟩
abbrev main_cst_14 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_15 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_16 : Ref sig .tc := ⟨.hbm, 103, rfl⟩
abbrev main_v59 : Ref sig .tc := ⟨.hbm, 104, rfl⟩
abbrev main_v60 : Ref sig .tc := ⟨.hbm, 105, rfl⟩
abbrev main_c_17 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_18 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_19 : Ref sig .tc := ⟨.hbm, 116, rfl⟩
abbrev main_v69 : Ref sig .tc := ⟨.hbm, 117, rfl⟩
abbrev main_cst_20 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_cst_21 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_c_22 : Ref sig .tc := ⟨.hbm, 128, rfl⟩
abbrev main_v78 : Ref sig .tc := ⟨.hbm, 129, rfl⟩
abbrev main_v79 : Ref sig .tc := ⟨.hbm, 130, rfl⟩
abbrev main_c_23 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_24 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_25 : Ref sig .tc := ⟨.hbm, 141, rfl⟩
abbrev main_v88 : Ref sig .tc := ⟨.hbm, 142, rfl⟩
abbrev main_cst_26 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_27 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem9_1 : DmaSem sig := 36

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S200000x32 : S_.BroadcastsInDim S200000x32 (![] : Fin 0 → Fin S200000x32.rank)
  bcast_S200000x1_S200000x32_0_1 : S200000x1.BroadcastsInDim S200000x32 (![0, 1] : Fin 2 → Fin S200000x32.rank)
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x64_S64x32_S5000x32_1_0_0_1_n_n_wf : DotDims.WF S5000x64 S64x32 S5000x32 [1] [0] [0] [1] [] []
  gather_S200000x32_S1000000x1_S1000000x32_1_0_n_n_0_1_132_wf : GatherDims.WF S200000x32 S1000000x1 S1000000x32 [1] [0] [] [0] [] 1 ![1, 32]
  scatter_S200000x32_S1000000x1_S1000000x32_1_0_0_1_wf : ScatterDims.WF S200000x32 S1000000x1 S1000000x32 [1] [0] [0] 1
  gather_S100000x32_S1000000x1_S1000000x32_1_0_n_n_0_1_132_wf : GatherDims.WF S100000x32 S1000000x1 S1000000x32 [1] [0] [] [0] [] 1 ![1, 32]
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S200000x64.size a
  hwx0_1 : ∀ i : grid0.Coords, EltTy.bits .f32 = 32 ∨ (Rect.block (s := S200000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S200000x64.size a
  hwx0_2 : ∀ i : grid0.Coords, EltTy.bits .f32 = 32 ∨ (Rect.block (s := S200000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S200000x32.size a
  hwx0_9 : ∀ i : grid0.Coords, EltTy.bits .f32 = 32 ∨ (Rect.block (s := S200000x32) S5000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S200000x32.size a
  hwx2_0 : ∀ i : grid2.Coords, EltTy.bits .f32 = 32 ∨ (Rect.block (s := S200000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S200000x32.size a
  hwx2_1 : ∀ i : grid2.Coords, EltTy.bits .f32 = 32 ∨ (Rect.block (s := S200000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S200000x32.size a
  hwx2_2 : ∀ i : grid2.Coords, EltTy.bits .f32 = 32 ∨ (Rect.block (s := S200000x32) S5000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32.size a ≤ S32.size a
  hwx2_5 : ∀ i : grid2.Coords, EltTy.bits .f32 = 32 ∨ (Rect.block (s := S32) S32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x32.size a ≤ S32x32.size a
  hwx2_7 : ∀ i : grid2.Coords, EltTy.bits .f32 = 32 ∨ (Rect.block (s := S32x32) S32x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32.size a ≤ S32.size a
  hwx2_8 : ∀ i : grid2.Coords, EltTy.bits .f32 = 32 ∨ (Rect.block (s := S32) S32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x32.size a ≤ S200000x32.size a
  hwx2_9 : ∀ i : grid2.Coords, EltTy.bits .f32 = 32 ∨ (Rect.block (s := S200000x32) S5000x32.size (cc2_transform_9 i) (hinb2_9 i)).WholeWords (EltTy.packing .f32)

variable [Facts₀]

def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S200000x32_S1000000x1_S1000000x32_1_0_n_n_0_1_132 : GatherDims S200000x32 S1000000x1 S1000000x32 where
  offsetDims := [1]
  collapsedSliceDims := [0]
  operandBatchingDims := []
  startIndicesBatchingDims := []
  startIndexMap := [0]
  indexVectorDim := 1
  sliceSizes := ![1, 32]
  wf := gather_S200000x32_S1000000x1_S1000000x32_1_0_n_n_0_1_132_wf
def scatter_S200000x32_S1000000x1_S1000000x32_1_0_0_1 : ScatterDims S200000x32 S1000000x1 S1000000x32 where
  updateWindowDims := [1]
  insertedWindowDims := [0]
  scatterDimsToOperandDims := [0]
  indexVectorDim := 1
  wf := scatter_S200000x32_S1000000x1_S1000000x32_1_0_0_1_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v57) S5000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v56) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg14) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg15) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg16) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v77) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v96) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg21) S32x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg22) S32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v97) S5000x32.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S1000000 : Shape := ⟨1, ![1000000]⟩
abbrev S64x32 : Shape := ⟨2, ![64, 32]⟩
abbrev S32 : Shape := ⟨1, ![32]⟩
abbrev S32x32 : Shape := ⟨2, ![32, 32]⟩
abbrev S_ : Shape := ⟨0, ![]⟩
abbrev S1000000x1 : Shape := ⟨2, ![1000000, 1]⟩
abbrev S1000000x64 : Shape := ⟨2, ![1000000, 64]⟩
abbrev S200000 : Shape := ⟨1, ![200000]⟩
abbrev S200000x1 : Shape := ⟨2, ![200000, 1]⟩
abbrev S200000x32 : Shape := ⟨2, ![200000, 32]⟩
abbrev S1x32 : Shape := ⟨2, ![1, 32]⟩
abbrev S100000 : Shape := ⟨1, ![100000]⟩
abbrev S100000x1 : Shape := ⟨2, ![100000, 1]⟩
abbrev S100000x32 : Shape := ⟨2, ![100000, 32]⟩
abbrev S1000000x32 : Shape := ⟨2, ![1000000, 32]⟩

abbrev nBuf : Space → Nat
  | .hbm => 189
  | .vmem => 0
  | .smem => 0
  | _ => 0

abbrev hbmTy0_0 (i : Nat) : BufTy := match i % 128 with
  | 0 => ⟨S200000x64, .f32⟩
  | 1 => ⟨S100000x64, .f32⟩
  | 2 => ⟨S1000000, .i32⟩
  | 3 => ⟨S1000000, .i32⟩
  | 4 => ⟨S1000000, .i32⟩
  | 5 => ⟨S1000000, .i32⟩
  | 6 => ⟨S1000000, .i32⟩
  | 7 => ⟨S1000000, .i32⟩
  | 8 => ⟨S64x32, .f32⟩
  | 9 => ⟨S64x32, .f32⟩
  | 10 => ⟨S32, .f32⟩
  | 11 => ⟨S64x32, .f32⟩
  | 12 => ⟨S64x32, .f32⟩
  | 13 => ⟨S32, .f32⟩
  | 14 => ⟨S64x32, .f32⟩
  | 15 => ⟨S64x32, .f32⟩
  | 16 => ⟨S32, .f32⟩
  | 17 => ⟨S32x32, .f32⟩
  | 18 => ⟨S32x32, .f32⟩
  | 19 => ⟨S32, .f32⟩
  | 20 => ⟨S32x32, .f32⟩
  | 21 => ⟨S32x32, .f32⟩
  | 22 => ⟨S32, .f32⟩
  | 23 => ⟨S32x32, .f32⟩
  | 24 => ⟨S32x32, .f32⟩
  | 25 => ⟨S32, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S_, .f32⟩
  | 36 => ⟨S200000x64, .f32⟩
  | 37 => ⟨S1000000x1, .i32⟩
  | 38 => ⟨S200000x64, .f32⟩
  | 39 => ⟨S_, .f32⟩
  | 40 => ⟨S1000000, .f32⟩
  | 41 => ⟨S_, .f32⟩
  | 42 => ⟨S200000, .f32⟩
  | 43 => ⟨S1000000x1, .i32⟩
  | 44 => ⟨S200000, .f32⟩
  | 45 => ⟨S_, .f32⟩
  | 46 => ⟨S200000, .f32⟩
  | 47 => ⟨S200000, .f32⟩
  | 48 => ⟨S200000x1, .f32⟩
  | 49 => ⟨S200000x64, .f32⟩
  | 50 => ⟨S200000x64, .f32⟩
  | 51 => ⟨S200000x32, .f32⟩
  | 52 => ⟨S200000x32, .f32⟩
  | 53 => ⟨S200000x32, .f32⟩
  | 54 => ⟨S1x32, .f32⟩
  | 55 => ⟨S200000x32, .f32⟩
  | 56 => ⟨S200000x32, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S_, .f32⟩
  | 67 => ⟨S200000x64, .f32⟩
  | 68 => ⟨S1000000x1, .i32⟩
  | 69 => ⟨S200000x64, .f32⟩
  | 70 => ⟨S_, .f32⟩
  | 71 => ⟨S1000000, .f32⟩
  | 72 => ⟨S_, .f32⟩
  | 73 => ⟨S200000, .f32⟩
  | 74 => ⟨S1000000x1, .i32⟩
  | 75 => ⟨S200000, .f32⟩
  | 76 => ⟨S_, .f32⟩
  | 77 => ⟨S200000, .f32⟩
  | 78 => ⟨S200000, .f32⟩
  | 79 => ⟨S200000x1, .f32⟩
  | 80 => ⟨S200000x64, .f32⟩
  | 81 => ⟨S200000x64, .f32⟩
  | 82 => ⟨S200000x32, .f32⟩
  | 83 => ⟨S200000x32, .f32⟩
  | 84 => ⟨S200000x32, .f32⟩
  | 85 => ⟨S1x32, .f32⟩
  | 86 => ⟨S200000x32, .f32⟩
  | 87 => ⟨S200000x32, .f32⟩
  | 88 => ⟨S200000x32, .f32⟩
  | 89 => ⟨S_, .f32⟩
  | 90 => ⟨S200000x32, .f32⟩
  | 91 => ⟨S200000x32, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x64, .f32⟩
  | 101 => ⟨S_, .f32⟩
  | 102 => ⟨S100000x64, .f32⟩
  | 103 => ⟨S1000000x1, .i32⟩
  | 104 => ⟨S100000x64, .f32⟩
  | 105 => ⟨S_, .f32⟩
  | 106 => ⟨S1000000, .f32⟩
  | 107 => ⟨S_, .f32⟩
  | 108 => ⟨S100000, .f32⟩
  | 109 => ⟨S1000000x1, .i32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x64, .f32⟩
  | 116 => ⟨S100000x64, .f32⟩
  | 117 => ⟨S100000x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S_, .i32⟩
  | 127 => ⟨S1000000, .i32⟩
  | _ => ⟨S200000x64, .f32⟩

abbrev hbmTy0_1 (i : Nat) : BufTy := match i % 128 with
  | 0 => ⟨S1000000, .i1⟩
  | 1 => ⟨S_, .i32⟩
  | 2 => ⟨S1000000, .i32⟩
  | 3 => ⟨S1000000, .i32⟩
  | 4 => ⟨S1000000, .i32⟩
  | 5 => ⟨S1000000x1, .i32⟩
  | 6 => ⟨S1000000x32, .f32⟩
  | 7 => ⟨S_, .f32⟩
  | 8 => ⟨S200000x32, .f32⟩
  | 9 => ⟨S1000000x1, .i32⟩
  | 10 => ⟨S200000x32, .f32⟩
  | 11 => ⟨S_, .f32⟩
  | 12 => ⟨S1000000, .f32⟩
  | 13 => ⟨S_, .f32⟩
  | 14 => ⟨S200000, .f32⟩
  | 15 => ⟨S1000000x1, .i32⟩
  | 16 => ⟨S200000, .f32⟩
  | 17 => ⟨S_, .f32⟩
  | 18 => ⟨S200000, .f32⟩
  | 19 => ⟨S200000, .f32⟩
  | 20 => ⟨S200000x1, .f32⟩
  | 21 => ⟨S200000x32, .f32⟩
  | 22 => ⟨S200000x32, .f32⟩
  | 23 => ⟨S200000x32, .f32⟩
  | 24 => ⟨S200000x32, .f32⟩
  | 25 => ⟨S200000x32, .f32⟩
  | 26 => ⟨S1x32, .f32⟩
  | 27 => ⟨S200000x32, .f32⟩
  | 28 => ⟨S200000x32, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x32, .f32⟩
  | 38 => ⟨S_, .f32⟩
  | 39 => ⟨S200000x32, .f32⟩
  | 40 => ⟨S1000000x1, .i32⟩
  | 41 => ⟨S200000x32, .f32⟩
  | 42 => ⟨S_, .f32⟩
  | 43 => ⟨S1000000, .f32⟩
  | 44 => ⟨S_, .f32⟩
  | 45 => ⟨S200000, .f32⟩
  | 46 => ⟨S1000000x1, .i32⟩
  | 47 => ⟨S200000, .f32⟩
  | 48 => ⟨S_, .f32⟩
  | 49 => ⟨S200000, .f32⟩
  | 50 => ⟨S200000, .f32⟩
  | 51 => ⟨S200000x1, .f32⟩
  | 52 => ⟨S200000x32, .f32⟩
  | 53 => ⟨S200000x32, .f32⟩
  | 54 => ⟨S200000x32, .f32⟩
  | 55 => ⟨S200000x32, .f32⟩
  | 56 => ⟨S200000x32, .f32⟩
  | 57 => ⟨S1x32, .f32⟩
  | 58 => ⟨S200000x32, .f32⟩
  | 59 => ⟨S200000x32, .f32⟩
  | 60 => ⟨S200000x32, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_c_5 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_6 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_7 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst_9 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_call0_cst : Ref sig .tc := ⟨.hbm, 89, rfl⟩
abbrev main_call0_v0 : Ref sig .tc := ⟨.hbm, 90, rfl⟩
abbrev main_v51 : Ref sig .tc := ⟨.hbm, 91, rfl⟩
abbrev main_c_10 : Ref sig .tc := ⟨.hbm, 92, rfl⟩
abbrev main_v52 : Ref sig .tc := ⟨.hbm, 93, rfl⟩
abbrev main_v53 : Ref sig .tc := ⟨.hbm, 94, rfl⟩
abbrev main_c_11 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_12 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_13 : Ref sig .tc := ⟨.hbm, 105, rfl⟩
abbrev main_v62 : Ref sig .tc := ⟨.hbm, 106, rfl⟩
abbrev main_cst_14 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_15 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_call1_cst : Ref sig .tc := ⟨.hbm, 123, rfl⟩
abbrev main_call1_v0 : Ref sig .tc := ⟨.hbm, 124, rfl⟩
abbrev main_v77 : Ref sig .tc := ⟨.hbm, 125, rfl⟩
abbrev main_c_16 : Ref sig .tc := ⟨.hbm, 126, rfl⟩
abbrev main_v78 : Ref sig .tc := ⟨.hbm, 127, rfl⟩
abbrev main_v79 : Ref sig .tc := ⟨.hbm, 128, rfl⟩
abbrev main_c_17 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_18 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_19 : Ref sig .tc := ⟨.hbm, 139, rfl⟩
abbrev main_v88 : Ref sig .tc := ⟨.hbm, 140, rfl⟩
abbrev main_cst_20 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_21 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_22 : Ref sig .tc := ⟨.hbm, 157, rfl⟩
abbrev main_v103 : Ref sig .tc := ⟨.hbm, 158, rfl⟩
abbrev main_v104 : Ref sig .tc := ⟨.hbm, 159, rfl⟩
abbrev main_c_23 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_cst_24 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_25 : Ref sig .tc := ⟨.hbm, 170, rfl⟩
abbrev main_v113 : Ref sig .tc := ⟨.hbm, 171, rfl⟩
abbrev main_cst_26 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_27 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S200000x1_S200000x32_0_1 : S200000x1.BroadcastsInDim S200000x32 (![0, 1] : Fin 2 → Fin S200000x32.rank)
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  dot_S200000x64_S64x32_S200000x32_1_0_0_1_n_n_wf : DotDims.WF S200000x64 S64x32 S200000x32 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x32_S100000x32_1_0_0_1_n_n_wf : DotDims.WF S100000x64 S64x32 S100000x32 [1] [0] [0] [1] [] []
  gather_S200000x32_S1000000x1_S1000000x32_1_0_n_n_0_1_132_wf : GatherDims.WF S200000x32 S1000000x1 S1000000x32 [1] [0] [] [0] [] 1 ![1, 32]
  scatter_S200000x32_S1000000x1_S1000000x32_1_0_0_1_wf : ScatterDims.WF S200000x32 S1000000x1 S1000000x32 [1] [0] [0] 1
  dot_S200000x32_S32x32_S200000x32_1_0_0_1_n_n_wf : DotDims.WF S200000x32 S32x32 S200000x32 [1] [0] [0] [1] [] []
  gather_S100000x32_S1000000x1_S1000000x32_1_0_n_n_0_1_132_wf : GatherDims.WF S100000x32 S1000000x1 S1000000x32 [1] [0] [] [0] [] 1 ![1, 32]

variable [Facts₀]

def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x64_S64x32_S200000x32_1_0_0_1_n_n : DotDims S200000x64 S64x32 S200000x32 where
  lhsContracting := [1]
  rhsContracting := [0]
  lhsNonContracting := [0]
  rhsNonContracting := [1]
  lhsBatch := []
  rhsBatch := []
  wf := dot_S200000x64_S64x32_S200000x32_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S200000x32_S1000000x1_S1000000x32_1_0_n_n_0_1_132 : GatherDims S200000x32 S1000000x1 S1000000x32 where
  offsetDims := [1]
  collapsedSliceDims := [0]
  operandBatchingDims := []
  startIndicesBatchingDims := []
  startIndexMap := [0]
  indexVectorDim := 1
  sliceSizes := ![1, 32]
  wf := gather_S200000x32_S1000000x1_S1000000x32_1_0_n_n_0_1_132_wf
def scatter_S200000x32_S1000000x1_S1000000x32_1_0_0_1 : ScatterDims S200000x32 S1000000x1 S1000000x32 where
  updateWindowDims := [1]
  insertedWindowDims := [0]
  scatterDimsToOperandDims := [0]
  indexVectorDim := 1
  wf := scatter_S200000x32_S1000000x1_S1000000x32_1_0_0_1_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf

class Facts : Prop extends Facts₀ where

variable [Facts]
-- ==== Proof.KernelRun.lean ====
/-
  The kernel's run, with its result named.

  @main is five segments: the first stretch of host operations (the three means of layer one), the two hidden-layer
  regions, the second stretch of host operations (the two means of layer two) and the output-layer region. Each segment
  takes the buffers at one boundary's contents to the next boundary's contents; after the last one every buffer holds
  the last boundary's contents. So every weakly fair execution terminates without a fault with the result buffer at
  the last boundary's contents and the arguments as launched.
-/
import proofs.«103733_j25305947308177_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the last
    boundary gives it and the argument arrays as launched. -/
theorem run : θ_run defs (onTc (τ := τ) (main (F := F))) ⟨m, fun _ => 0, ρ⟩ (fun r => ∀ c : Dev nD,
      r.2.mem ((c.tc : Thread nD τ).loc main_v97) = W5 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v97 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c),
       (h c _ (mem_uc main_arg23 (by decide))).trans (W5_main_arg23 m ρ c),
       (h c _ (mem_uc main_arg24 (by decide))).trans (W5_main_arg24 m ρ c),
       (h c _ (mem_uc main_arg25 (by decide))).trans (W5_main_arg25 m ρ c)⟩)

end Cert.KernelIdeal.ValueRun

end
-- ==== Proof.SageSpec.lean ====
/-
  The mathematics of one message-passing layer, over the extended reals.

  A relation's contribution to a destination node `r` and an output channel `j` is
      (sum over k of mean[r,k] * Wl[k,j]) + (sum over k of x[r,k] * Wr[k,j]) + b[j],
  where `mean` is the mean of the neighbours' features and `x` the destination's own features. A node type that two
  relations reach sums their two contributions; the hidden layer then takes the maximum with zero.

  The kernel adds the six terms of a two-relation layer from the left, one after the other; the reference adds the two
  relations' triples and then the two results. Addition of extended reals is associative (it is a commutative monoid
  even with the infinities), so the two groupings agree: `regroup`. No distributivity or cancellation is used, so
  nothing here needs the inputs to be finite.
-/
import Idealize.ShloMosaic.PureOps.Ideal
import Idealize.ShloMosaic.Lib.ValueIdx

noncomputable section

open scoped BigOperators

namespace Cert.Sage

open Idealize.ShloMosaic Idealize.ShloMosaic.ValueIdx

/-- The row-by-column product `(A · W)[r, j]`, as the sum over the shared axis. -/
def dotAt {N D : Nat} (A : (⟨2, ![N, D]⟩ : Shape).Idx → EReal) (W : (⟨2, ![D, 32]⟩ : Shape).Idx → EReal)
    (r : Fin N) (j : Fin 32) : EReal :=
  ∑ k : Fin D, A (ix2 r k) * W (ix2 k j)

/-- One relation's contribution at node `r`, channel `j`: `mean · Wl + x · Wr + b`. -/
def rel {N D : Nat} (M X : (⟨2, ![N, D]⟩ : Shape).Idx → EReal) (Wl Wr : (⟨2, ![D, 32]⟩ : Shape).Idx → EReal)
    (b : (⟨1, ![32]⟩ : Shape).Idx → EReal) (r : Fin N) (j : Fin 32) : EReal :=
  (dotAt M Wl r j + dotAt X Wr r j) + b (ix1 j)

/-- Two relations into one node type, no activation: the sum of the two contributions. -/
def two {N D : Nat} (M1 M2 X : (⟨2, ![N, D]⟩ : Shape).Idx → EReal) (Wl1 Wr1 : (⟨2, ![D, 32]⟩ : Shape).Idx → EReal)
    (b1 : (⟨1, ![32]⟩ : Shape).Idx → EReal) (Wl2 Wr2 : (⟨2, ![D, 32]⟩ : Shape).Idx → EReal)
    (b2 : (⟨1, ![32]⟩ : Shape).Idx → EReal) (r : Fin N) (j : Fin 32) : EReal :=
  rel M1 X Wl1 Wr1 b1 r j + rel M2 X Wl2 Wr2 b2 r j

/-- A relation's term computed from BLOCKS of the arrays is the term computed from the arrays themselves, at the row `r` the
    block's row `y` sits on and the channel `j'` its channel `j` sits on: entry by entry the blocks hold what the arrays hold there. -/
theorem rel_block {N n D : Nat} (M X : (⟨2, ![N, D]⟩ : Shape).Idx → EReal) (Mb Xb : (⟨2, ![n, D]⟩ : Shape).Idx → EReal)
    (Wl Wr Wlb Wrb : (⟨2, ![D, 32]⟩ : Shape).Idx → EReal) (b bb : (⟨1, ![32]⟩ : Shape).Idx → EReal)
    (r : Fin N) (y : Fin n) (j j' : Fin 32)
    (hM : ∀ k : Fin D, Mb (ix2 y k) = M (ix2 r k)) (hX : ∀ k : Fin D, Xb (ix2 y k) = X (ix2 r k))
    (hWl : ∀ k : Fin D, Wlb (ix2 k j) = Wl (ix2 k j')) (hWr : ∀ k : Fin D, Wrb (ix2 k j) = Wr (ix2 k j'))
    (hb : bb (ix1 j) = b (ix1 j')) :
    rel Mb Xb Wlb Wrb bb y j = rel M X Wl Wr b r j' := by
  unfold rel dotAt
  simp only [hb, hM, hX, hWl, hWr]

/-- The six terms added from the left, as the kernel's body adds them, are the sum of the two relations' triples. -/
theorem regroup (a b c d e f : EReal) : ((((a + b) + c) + d) + e) + f = ((a + b) + c) + ((d + e) + f) := by
  simp only [add_assoc]

end Cert.Sage

end
-- ==== Proof.Body.lean ====
/-
  The three kernel bodies, each read at one entry of its output block, over the extended reals.

  Every body loads a block of rows of each node-feature array and the whole of each weight matrix and bias, multiplies
  (casting to a narrower format first, which changes nothing over the extended reals), adds the products and the biases
  from the left, and (in the hidden layer) takes the maximum with zero. Read at row `y` and channel `j` of the block
  that is the layer's formula of the specification, with the blocks in place of the arrays.
-/
import proofs.«103733_j25305947308177_2_alg».proof.Proof.Gen.KernelIdeal.Skeleton
import proofs.«103733_j25305947308177_2_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen Cert.Sage

theorem lhs64_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem rhs64_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A block of 64-channel rows times a 64 × 32 weight matrix, into the zero accumulator, read at row `y`, channel `j`:
    the sum over the 64 shared channels (the operands' formats do not matter over the extended reals). -/
theorem matmul64_at (l : FVec Ideal S5000x64 .bf16) (r : FVec Ideal S64x32 .bf16) (y : Fin 5000) (j : Fin 32) :
    matmul dot_S5000x64_S64x32_S5000x32_1_0_0_1_n_n none l r (constant (F := Ideal) S5000x32 .f32 0x00000000#32) (ix2 y j)
      = ∑ k : Fin 64, l (ix2 y k) * r (ix2 k j) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 y j) ((contrEquiv1 dot_S5000x64_S64x32_S5000x32_1_0_0_1_n_n 64 rfl rfl).symm k) = ix2 y k := funext fun a => Fin.ext (by
    match a with
    | ⟨0, _⟩ => exact lhs64_0 _ _
    | ⟨1, _⟩ => exact (dot_S5000x64_S64x32_S5000x32_1_0_0_1_n_n.lhsIdx_val_of_single rfl _ _).trans hk)
  have er : dot_S5000x64_S64x32_S5000x32_1_0_0_1_n_n.rhsIdx (ix2 y j) ((contrEquiv1 dot_S5000x64_S64x32_S5000x32_1_0_0_1_n_n 64 rfl rfl).symm k) = ix2 k j := funext fun a => Fin.ext (by
    match a with
    | ⟨0, _⟩ => exact (dot_S5000x64_S64x32_S5000x32_1_0_0_1_n_n.rhsIdx_val_of_single rfl _ _).trans hk
    | ⟨1, _⟩ => exact rhs64_1 _ _)
  rw [el, er]

theorem lhs32_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem rhs32_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- A block of 32-channel rows times a 32 × 32 weight matrix, into the zero accumulator, read at row `y`, channel `j`:
    the sum over the 32 shared channels (the operands' formats do not matter over the extended reals). -/
theorem matmul32_at (l : FVec Ideal S5000x32 .bf16) (r : FVec Ideal S32x32 .bf16) (y : Fin 5000) (j : Fin 32) :
    matmul dot_S5000x32_S32x32_S5000x32_1_0_0_1_n_n none l r (constant (F := Ideal) S5000x32 .f32 0x00000000#32) (ix2 y j)
      = ∑ k : Fin 32, l (ix2 y k) * r (ix2 k j) := by
  simp only [matmul]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 y j) ((contrEquiv1 dot_S5000x32_S32x32_S5000x32_1_0_0_1_n_n 32 rfl rfl).symm k) = ix2 y k := funext fun a => Fin.ext (by
    match a with
    | ⟨0, _⟩ => exact lhs32_0 _ _
    | ⟨1, _⟩ => exact (dot_S5000x32_S32x32_S5000x32_1_0_0_1_n_n.lhsIdx_val_of_single rfl _ _).trans hk)
  have er : dot_S5000x32_S32x32_S5000x32_1_0_0_1_n_n.rhsIdx (ix2 y j) ((contrEquiv1 dot_S5000x32_S32x32_S5000x32_1_0_0_1_n_n 32 rfl rfl).symm k) = ix2 k j := funext fun a => Fin.ext (by
    match a with
    | ⟨0, _⟩ => exact (dot_S5000x32_S32x32_S5000x32_1_0_0_1_n_n.rhsIdx_val_of_single rfl _ _).trans hk
    | ⟨1, _⟩ => exact rhs32_1 _ _)
  rw [el, er]

/-- The bias, laid out as a row and repeated down the block, read at row `y`, channel `j`, is the bias at `j`. -/
theorem bias_at (b : Vec Ideal S32 .f32) (y : Fin 5000) (j : Fin 32) :
    (broadcastTo S5000x32 (shapeCast S1x32 b shapeCasts_S32_S1x32 : FVec Ideal S1x32 .f32) broadcasts_S1x32_S5000x32 : FVec Ideal S5000x32 .f32) (ix2 y j)
      = b (ix1 j) := by
  rw [broadcastTo_apply _ _ _ (ix2 (0 : Fin 1) j) (by intro a; match a with | ⟨0, _⟩ => rfl | ⟨1, _⟩ => rfl)]
  exact (shapeCast_addUnit_apply ![32] b _ _).trans (congrArg b (funext fun a => by match a with | ⟨0, _⟩ => rfl))

/-- The zero the hidden layers compare with. -/
theorem zero_word : (Scalar.ofBits (F := Ideal) .f32 0x00000000#32 : EReal) = 0 := Ideal.ofBits_zero_f32

/-- The paper nodes' hidden layer (two relations, then the maximum with zero) at one entry of a block. -/
theorem pay0_at (v0 v3 v6 : Vec Ideal S5000x64 .f32) (v8 v10 v12 v14 : Vec Ideal S64x32 .f32) (v16 v17 : Vec Ideal S32 .f32)
    (y : Fin 5000) (j : Fin 32) :
    k0_pay1 v0 v3 v6 v8 v10 v12 v14 v16 v17 (ix2 y j) = max (two v0 v3 v6 v8 v10 v16 v12 v14 v17 y j) 0 := by
  unfold k0_pay1
  simp only [maximumf_apply, addf_apply, broadcast_apply, matmul64_at, bias_at, truncf_apply, shapeCast_self, zero_word]
  unfold two rel dotAt
  rw [regroup]

/-- The author nodes' hidden layer (one relation, then the maximum with zero) at one entry of a block. -/
theorem pay1_at (v0 v3 : Vec Ideal S5000x64 .f32) (v5 v7 : Vec Ideal S64x32 .f32) (v9 : Vec Ideal S32 .f32)
    (y : Fin 5000) (j : Fin 32) :
    k1_pay1 v0 v3 v5 v7 v9 (ix2 y j) = max (rel v0 v3 v5 v7 v9 y j) 0 := by
  unfold k1_pay1
  simp only [maximumf_apply, addf_apply, broadcast_apply, matmul64_at, bias_at, truncf_apply, shapeCast_self, zero_word]
  unfold rel dotAt
  rfl

/-- The paper nodes' output layer (two relations, no activation) at one entry of a block. -/
theorem pay2_at (v0 v3 v6 : Vec Ideal S5000x32 .f32) (v9 v11 v13 v15 : Vec Ideal S32x32 .f32) (v17 v18 : Vec Ideal S32 .f32)
    (y : Fin 5000) (j : Fin 32) :
    k2_pay1 v0 v3 v6 v9 v11 v13 v15 v17 v18 (ix2 y j) = two v0 v3 v6 v9 v11 v17 v13 v15 v18 y j := by
  unfold k2_pay1
  simp only [addf_apply, matmul32_at, bias_at, truncf_apply, shapeCast_self]
  unfold two rel dotAt
  rw [regroup]

end Cert.KernelIdeal.Body

end
-- ==== Proof.Region0.lean ====
/-
  The first region: the paper nodes' hidden layer (the `cites` and `writes` relations into the papers, then the maximum with zero).

  The region runs the body once per block of 5000 destination nodes. Point `t` reads rows 5000·t … 5000·t + 4999 of each
  node-feature array and the whole of each weight matrix and bias, and writes back rows 5000·t … 5000·t + 4999 of the
  output. The body's entry at row `y`, channel `q` of the block is the layer's formula of the blocks; entry by entry the
  blocks hold what the arrays hold at row 5000·t + y, so it is the layer's formula of the arrays at that row. The 40
  blocks tile the 200000 rows (row `r` lies in block `r / 5000`), so after the region the output array holds the layer's
  formula of the arrays the region found, at every entry.
-/
import proofs.«103733_j25305947308177_2_alg».proof.Proof.Gen.KernelIdeal.Frame
import proofs.«103733_j25305947308177_2_alg».proof.Proof.Body
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the output array holds after the region: the layer's formula of the arrays the region finds. -/
def result (c : Dev nD) : S200000x32.Idx → EReal := fun i =>
  max (two (N := 200000) (D := 64) (V c main_v18) (V c main_v37) (V c main_arg0) (V c main_arg8) (V c main_arg9) (V c main_arg10) (V c main_arg11) (V c main_arg12) (V c main_arg13) (i 0) (i 1)) 0

/-- How the windows move over the grid: the node-feature blocks move with the output block along the rows and never along
    the channels; the weights and biases never move. Decided point by point. -/
theorem idx_facts : ∀ t : Fin cfg0.N, win0_0.index t (0 : Fin 2) = win0_9.index t (0 : Fin 2)
    ∧ win0_0.index t (1 : Fin 2) = 0
    ∧ win0_1.index t (0 : Fin 2) = win0_9.index t (0 : Fin 2)
    ∧ win0_1.index t (1 : Fin 2) = 0
    ∧ win0_2.index t (0 : Fin 2) = win0_9.index t (0 : Fin 2)
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_5.index t (0 : Fin 1) = 0
    ∧ win0_8.index t (0 : Fin 1) = 0
    ∧ win0_9.index t (1 : Fin 2) = 0 :=
  (by decide +kernel : ∀ t : Fin grid0.N, _)

/-- Every block of rows is some point's. -/
theorem idx_onto : ∀ q0 : Fin 40, ∃ t : Fin cfg0.N, win0_9.index t = ![q0.val, 0] :=
  (by decide +kernel : ∀ q0 : Fin 40, ∃ t : Fin grid0.N, win0_9.index t = ![q0.val, 0])

set_option maxHeartbeats 4000000 in
/-- What point `t` writes back is block `t` of `result`. -/
theorem flushed_eq (c : Dev nD) (t : Fin cfg0.N) :
    (dat0 (F := Ideal) V c).flushed 9 t = ((cfg0.win 9).blk t).view.read (Elt Ideal) (result V c) := by
  show (cfg0.win 9).cut (grid0.coords t) ((dat0 (F := Ideal) V c).after 9 t) = _
  rw [after0_9]
  unfold out0_9
  rw [View.canon_unit_zero hz2]
  simp only [View.ld_unit_zero (S := S5000x64) hz2, View.ld_unit_zero (S := S64x32) hz2, View.ld_unit_zero (S := S32) hz1]
  obtain ⟨e0, e1, e2, e3, e4, e5, e6, e7, e8, e9, e10, e11, e12, e13, e14, e15, e16⟩ := idx_facts t
  funext j
  obtain ⟨y, q, rfl⟩ : ∃ (y : Fin 5000) (q : Fin 32), j = ix2 y q := ⟨j 0, j 1, eq_ix2 j⟩
  show k0_pay1 (iblk0 V c 0 t) (iblk0 V c 1 t) (iblk0 V c 2 t) (iblk0 V c 3 t) (iblk0 V c 4 t) (iblk0 V c 6 t) (iblk0 V c 7 t) (iblk0 V c 5 t) (iblk0 V c 8 t) (ix2 y q) = result V c (((cfg0.win 9).blk t).view.emb (ix2 y q))
  refine (pay0_at (iblk0 V c 0 t) (iblk0 V c 1 t) (iblk0 V c 2 t) (iblk0 V c 3 t) (iblk0 V c 4 t) (iblk0 V c 6 t) (iblk0 V c 7 t) (iblk0 V c 5 t) (iblk0 V c 8 t) y q).trans ?_
  generalize hE : ((cfg0.win 9).blk t).view.emb (ix2 y q) = E
  have hE0 : (E 0).val = win0_9.index t (0 : Fin 2) * 5000 + 1 * y.val := by rw [← hE]; rfl
  have hE1 : (E 1).val = win0_9.index t (1 : Fin 2) * 32 + 1 * q.val := by rw [← hE]; rfl
  have hM1 : ∀ k : Fin 64, (iblk0 V c 0 t) (ix2 y k) = V c main_v18 (ix2 (E 0) k) := fun k => by
    show V c main_v18 (((cfg0.win 0).blk t).view.emb (ix2 y k)) = V c main_v18 (ix2 (E 0) k)
    refine congrArg (V c main_v18) (funext fun a => Fin.ext ?_)
    match a with
    | ⟨0, _⟩ => show win0_0.index t (0 : Fin 2) * 5000 + 1 * y.val = (E 0).val; omega
    | ⟨1, _⟩ => show win0_0.index t (1 : Fin 2) * 64 + 1 * k.val = k.val; omega
  have hM2 : ∀ k : Fin 64, (iblk0 V c 1 t) (ix2 y k) = V c main_v37 (ix2 (E 0) k) := fun k => by
    show V c main_v37 (((cfg0.win 1).blk t).view.emb (ix2 y k)) = V c main_v37 (ix2 (E 0) k)
    refine congrArg (V c main_v37) (funext fun a => Fin.ext ?_)
    match a with
    | ⟨0, _⟩ => show win0_1.index t (0 : Fin 2) * 5000 + 1 * y.val = (E 0).val; omega
    | ⟨1, _⟩ => show win0_1.index t (1 : Fin 2) * 64 + 1 * k.val = k.val; omega
  have hX : ∀ k : Fin 64, (iblk0 V c 2 t) (ix2 y k) = V c main_arg0 (ix2 (E 0) k) := fun k => by
    show V c main_arg0 (((cfg0.win 2).blk t).view.emb (ix2 y k)) = V c main_arg0 (ix2 (E 0) k)
    refine congrArg (V c main_arg0) (funext fun a => Fin.ext ?_)
    match a with
    | ⟨0, _⟩ => show win0_2.index t (0 : Fin 2) * 5000 + 1 * y.val = (E 0).val; omega
    | ⟨1, _⟩ => show win0_2.index t (1 : Fin 2) * 64 + 1 * k.val = k.val; omega
  have hWl1 : ∀ k : Fin 64, (iblk0 V c 3 t) (ix2 k q) = V c main_arg8 (ix2 k (E 1)) := fun k => by
    show V c main_arg8 (((cfg0.win 3).blk t).view.emb (ix2 k q)) = V c main_arg8 (ix2 k (E 1))
    refine congrArg (V c main_arg8) (funext fun a => Fin.ext ?_)
    match a with
    | ⟨0, _⟩ => show win0_3.index t (0 : Fin 2) * 64 + 1 * k.val = k.val; omega
    | ⟨1, _⟩ => show win0_3.index t (1 : Fin 2) * 32 + 1 * q.val = (E 1).val; omega
  have hWr1 : ∀ k : Fin 64, (iblk0 V c 4 t) (ix2 k q) = V c main_arg9 (ix2 k (E 1)) := fun k => by
    show V c main_arg9 (((cfg0.win 4).blk t).view.emb (ix2 k q)) = V c main_arg9 (ix2 k (E 1))
    refine congrArg (V c main_arg9) (funext fun a => Fin.ext ?_)
    match a with
    | ⟨0, _⟩ => show win0_4.index t (0 : Fin 2) * 64 + 1 * k.val = k.val; omega
    | ⟨1, _⟩ => show win0_4.index t (1 : Fin 2) * 32 + 1 * q.val = (E 1).val; omega
  have hWl2 : ∀ k : Fin 64, (iblk0 V c 6 t) (ix2 k q) = V c main_arg11 (ix2 k (E 1)) := fun k => by
    show V c main_arg11 (((cfg0.win 6).blk t).view.emb (ix2 k q)) = V c main_arg11 (ix2 k (E 1))
    refine congrArg (V c main_arg11) (funext fun a => Fin.ext ?_)
    match a with
    | ⟨0, _⟩ => show win0_6.index t (0 : Fin 2) * 64 + 1 * k.val = k.val; omega
    | ⟨1, _⟩ => show win0_6.index t (1 : Fin 2) * 32 + 1 * q.val = (E 1).val; omega
  have hWr2 : ∀ k : Fin 64, (iblk0 V c 7 t) (ix2 k q) = V c main_arg12 (ix2 k (E 1)) := fun k => by
    show V c main_arg12 (((cfg0.win 7).blk t).view.emb (ix2 k q)) = V c main_arg12 (ix2 k (E 1))
    refine congrArg (V c main_arg12) (funext fun a => Fin.ext ?_)
    match a with
    | ⟨0, _⟩ => show win0_7.index t (0 : Fin 2) * 64 + 1 * k.val = k.val; omega
    | ⟨1, _⟩ => show win0_7.index t (1 : Fin 2) * 32 + 1 * q.val = (E 1).val; omega
  have hb1 : (iblk0 V c 5 t) (ix1 q) = V c main_arg10 (ix1 (E 1)) := by
    show V c main_arg10 (((cfg0.win 5).blk t).view.emb (ix1 q)) = V c main_arg10 (ix1 (E 1))
    refine congrArg (V c main_arg10) (funext fun a => Fin.ext ?_)
    match a with
    | ⟨0, _⟩ => show win0_5.index t (0 : Fin 1) * 32 + 1 * q.val = (E 1).val; omega
  have hb2 : (iblk0 V c 8 t) (ix1 q) = V c main_arg13 (ix1 (E 1)) := by
    show V c main_arg13 (((cfg0.win 8).blk t).view.emb (ix1 q)) = V c main_arg13 (ix1 (E 1))
    refine congrArg (V c main_arg13) (funext fun a => Fin.ext ?_)
    match a with
    | ⟨0, _⟩ => show win0_8.index t (0 : Fin 1) * 32 + 1 * q.val = (E 1).val; omega
  have r1 := rel_block (N := 200000) (n := 5000) (D := 64) (V c main_v18) (V c main_arg0) (iblk0 V c 0 t) (iblk0 V c 2 t) (V c main_arg8) (V c main_arg9) (iblk0 V c 3 t) (iblk0 V c 4 t) (V c main_arg10) (iblk0 V c 5 t) (E 0) y q (E 1) hM1 hX hWl1 hWr1 hb1
  have r2 := rel_block (N := 200000) (n := 5000) (D := 64) (V c main_v37) (V c main_arg0) (iblk0 V c 1 t) (iblk0 V c 2 t) (V c main_arg11) (V c main_arg12) (iblk0 V c 6 t) (iblk0 V c 7 t) (V c main_arg13) (iblk0 V c 8 t) (E 0) y q (E 1) hM2 hX hWl2 hWr2 hb2
  exact congrArg (fun z : EReal => max z 0) (congrArg₂ (fun a b : EReal => a + b) r1 r2)

/-- An index of the output array is in point `t`'s block iff each coordinate is in the block's range on its axis. -/
theorem mem_blk (t : Fin cfg0.N) (i : S200000x32.Idx) :
    i ∈ ((cfg0.win 9).blk t).view.set ↔ ∀ a : Fin 2, win0_9.index t a * S5000x32.size a ≤ (i a).val ∧ (i a).val < win0_9.index t a * S5000x32.size a + S5000x32.size a := by
  show i ∈ ((View.whole main_v57).slice (win0_9.rect t)).set ↔ _
  rw [View.set_slice_whole, Rect.mem_set_unit]
  exact Iff.rfl

/-- Every entry of the output array is in some point's block: row `r` in block `r / 5000`. -/
theorem cover (i : S200000x32.Idx) :
    ∃ t : Fin cfg0.N, (cfg0.win 9).flush t = true ∧ i ∈ ((cfg0.win 9).blk t).view.set := by
  have hi0 : (i 0).val < 200000 := (i 0).isLt
  have hi1 : (i 1).val < 32 := (i 1).isLt
  obtain ⟨t, ht⟩ := idx_onto ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 32 ≤ (i 1).val ∧ (i 1).val < win0_9.index t (1 : Fin 2) * 32 + 32; omega

/-- The output array after the region. -/
theorem final (c : Dev nD) : (dat0 (F := Ideal) V c).arrAt 9 cfg0.N = result V c :=
  (dat0 (F := Ideal) V c).arrAt_eq_of_cover 9 (result V c) (fun t _ => flushed_eq V c t) cover

end Cert.KernelIdeal.Region0

end
-- ==== Proof.Region1.lean ====
/-
  The second region: the author nodes' hidden layer (the reverse relation into the authors, then the maximum with zero).

  The region runs the body once per block of 5000 destination nodes. Point `t` reads rows 5000·t … 5000·t + 4999 of each
  node-feature array and the whole of each weight matrix and bias, and writes back rows 5000·t … 5000·t + 4999 of the
  output. The body's entry at row `y`, channel `q` of the block is the layer's formula of the blocks; entry by entry the
  blocks hold what the arrays hold at row 5000·t + y, so it is the layer's formula of the arrays at that row. The 20
  blocks tile the 100000 rows (row `r` lies in block `r / 5000`), so after the region the output array holds the layer's
  formula of the arrays the region found, at every entry.
-/
import proofs.«103733_j25305947308177_2_alg».proof.Proof.Gen.KernelIdeal.Frame
import proofs.«103733_j25305947308177_2_alg».proof.Proof.Body
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the output array holds after the region: the layer's formula of the arrays the region finds. -/
def result (c : Dev nD) : S100000x32.Idx → EReal := fun i =>
  max (rel (N := 100000) (D := 64) (V c main_v56) (V c main_arg1) (V c main_arg14) (V c main_arg15) (V c main_arg16) (i 0) (i 1)) 0

/-- How the windows move over the grid: the node-feature blocks move with the output block along the rows and never along
    the channels; the weights and biases never move. Decided point by point. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (1 : Fin 2) = 0 :=
  (by decide +kernel : ∀ t : Fin grid1.N, _)

/-- Every block of rows is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

set_option maxHeartbeats 4000000 in
/-- What point `t` writes back is block `t` of `result`. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 (F := Ideal) V c).after 5 t) = _
  rw [after1_5]
  unfold out1_5
  rw [View.canon_unit_zero hz2]
  simp only [View.ld_unit_zero (S := S5000x64) hz2, View.ld_unit_zero (S := S64x32) hz2, View.ld_unit_zero (S := S32) hz1]
  obtain ⟨e0, e1, e2, e3, e4, e5, e6, e7, e8, e9⟩ := idx_facts t
  funext j
  obtain ⟨y, q, rfl⟩ : ∃ (y : Fin 5000) (q : Fin 32), j = ix2 y q := ⟨j 0, j 1, eq_ix2 j⟩
  show k1_pay1 (iblk1 V c 0 t) (iblk1 V c 1 t) (iblk1 V c 2 t) (iblk1 V c 3 t) (iblk1 V c 4 t) (ix2 y q) = result V c (((cfg1.win 5).blk t).view.emb (ix2 y q))
  refine (pay1_at (iblk1 V c 0 t) (iblk1 V c 1 t) (iblk1 V c 2 t) (iblk1 V c 3 t) (iblk1 V c 4 t) y q).trans ?_
  generalize hE : ((cfg1.win 5).blk t).view.emb (ix2 y q) = E
  have hE0 : (E 0).val = win1_5.index t (0 : Fin 2) * 5000 + 1 * y.val := by rw [← hE]; rfl
  have hE1 : (E 1).val = win1_5.index t (1 : Fin 2) * 32 + 1 * q.val := by rw [← hE]; rfl
  have hM1 : ∀ k : Fin 64, (iblk1 V c 0 t) (ix2 y k) = V c main_v56 (ix2 (E 0) k) := fun k => by
    show V c main_v56 (((cfg1.win 0).blk t).view.emb (ix2 y k)) = V c main_v56 (ix2 (E 0) k)
    refine congrArg (V c main_v56) (funext fun a => Fin.ext ?_)
    match a with
    | ⟨0, _⟩ => show win1_0.index t (0 : Fin 2) * 5000 + 1 * y.val = (E 0).val; omega
    | ⟨1, _⟩ => show win1_0.index t (1 : Fin 2) * 64 + 1 * k.val = k.val; omega
  have hX : ∀ k : Fin 64, (iblk1 V c 1 t) (ix2 y k) = V c main_arg1 (ix2 (E 0) k) := fun k => by
    show V c main_arg1 (((cfg1.win 1).blk t).view.emb (ix2 y k)) = V c main_arg1 (ix2 (E 0) k)
    refine congrArg (V c main_arg1) (funext fun a => Fin.ext ?_)
    match a with
    | ⟨0, _⟩ => show win1_1.index t (0 : Fin 2) * 5000 + 1 * y.val = (E 0).val; omega
    | ⟨1, _⟩ => show win1_1.index t (1 : Fin 2) * 64 + 1 * k.val = k.val; omega
  have hWl1 : ∀ k : Fin 64, (iblk1 V c 2 t) (ix2 k q) = V c main_arg14 (ix2 k (E 1)) := fun k => by
    show V c main_arg14 (((cfg1.win 2).blk t).view.emb (ix2 k q)) = V c main_arg14 (ix2 k (E 1))
    refine congrArg (V c main_arg14) (funext fun a => Fin.ext ?_)
    match a with
    | ⟨0, _⟩ => show win1_2.index t (0 : Fin 2) * 64 + 1 * k.val = k.val; omega
    | ⟨1, _⟩ => show win1_2.index t (1 : Fin 2) * 32 + 1 * q.val = (E 1).val; omega
  have hWr1 : ∀ k : Fin 64, (iblk1 V c 3 t) (ix2 k q) = V c main_arg15 (ix2 k (E 1)) := fun k => by
    show V c main_arg15 (((cfg1.win 3).blk t).view.emb (ix2 k q)) = V c main_arg15 (ix2 k (E 1))
    refine congrArg (V c main_arg15) (funext fun a => Fin.ext ?_)
    match a with
    | ⟨0, _⟩ => show win1_3.index t (0 : Fin 2) * 64 + 1 * k.val = k.val; omega
    | ⟨1, _⟩ => show win1_3.index t (1 : Fin 2) * 32 + 1 * q.val = (E 1).val; omega
  have hb1 : (iblk1 V c 4 t) (ix1 q) = V c main_arg16 (ix1 (E 1)) := by
    show V c main_arg16 (((cfg1.win 4).blk t).view.emb (ix1 q)) = V c main_arg16 (ix1 (E 1))
    refine congrArg (V c main_arg16) (funext fun a => Fin.ext ?_)
    match a with
    | ⟨0, _⟩ => show win1_4.index t (0 : Fin 1) * 32 + 1 * q.val = (E 1).val; omega
  have r1 := rel_block (N := 100000) (n := 5000) (D := 64) (V c main_v56) (V c main_arg1) (iblk1 V c 0 t) (iblk1 V c 1 t) (V c main_arg14) (V c main_arg15) (iblk1 V c 2 t) (iblk1 V c 3 t) (V c main_arg16) (iblk1 V c 4 t) (E 0) y q (E 1) hM1 hX hWl1 hWr1 hb1
  exact congrArg (fun z : EReal => max z 0) r1

/-- An index of the output array is in point `t`'s block iff each coordinate is in the block's range on its axis. -/
theorem mem_blk (t : Fin cfg1.N) (i : S100000x32.Idx) :
    i ∈ ((cfg1.win 5).blk t).view.set ↔ ∀ a : Fin 2, win1_5.index t a * S5000x32.size a ≤ (i a).val ∧ (i a).val < win1_5.index t a * S5000x32.size a + S5000x32.size a := by
  show i ∈ ((View.whole main_v58).slice (win1_5.rect t)).set ↔ _
  rw [View.set_slice_whole, Rect.mem_set_unit]
  exact Iff.rfl

/-- Every entry of the output array is in some point's block: row `r` in block `r / 5000`. -/
theorem cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 32 ≤ (i 1).val ∧ (i 1).val < win1_5.index t (1 : Fin 2) * 32 + 32; omega

/-- The output array after the region. -/
theorem final (c : Dev nD) : (dat1 (F := Ideal) V c).arrAt 5 cfg1.N = result V c :=
  (dat1 (F := Ideal) V c).arrAt_eq_of_cover 5 (result V c) (fun t _ => flushed_eq V c t) cover

end Cert.KernelIdeal.Region1

end
-- ==== Proof.Region2.lean ====
/-
  The third region: the paper nodes' output layer (the `cites` and `writes` relations over the hidden features, no activation).

  The region runs the body once per block of 5000 destination nodes. Point `t` reads rows 5000·t … 5000·t + 4999 of each
  node-feature array and the whole of each weight matrix and bias, and writes back rows 5000·t … 5000·t + 4999 of the
  output. The body's entry at row `y`, channel `q` of the block is the layer's formula of the blocks; entry by entry the
  blocks hold what the arrays hold at row 5000·t + y, so it is the layer's formula of the arrays at that row. The 40
  blocks tile the 200000 rows (row `r` lies in block `r / 5000`), so after the region the output array holds the layer's
  formula of the arrays the region found, at every entry.
-/
import proofs.«103733_j25305947308177_2_alg».proof.Proof.Gen.KernelIdeal.Frame
import proofs.«103733_j25305947308177_2_alg».proof.Proof.Body
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Sage

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- What the output array holds after the region: the layer's formula of the arrays the region finds. -/
def result (c : Dev nD) : S200000x32.Idx → EReal := fun i =>
  two (N := 200000) (D := 32) (V c main_v77) (V c main_v96) (V c main_v57) (V c main_arg17) (V c main_arg18) (V c main_arg19) (V c main_arg20) (V c main_arg21) (V c main_arg22) (i 0) (i 1)

/-- How the windows move over the grid: the node-feature blocks move with the output block along the rows and never along
    the channels; the weights and biases never move. Decided point by point. -/
theorem idx_facts : ∀ t : Fin cfg2.N, win2_0.index t (0 : Fin 2) = win2_9.index t (0 : Fin 2)
    ∧ win2_0.index t (1 : Fin 2) = 0
    ∧ win2_1.index t (0 : Fin 2) = win2_9.index t (0 : Fin 2)
    ∧ win2_1.index t (1 : Fin 2) = 0
    ∧ win2_2.index t (0 : Fin 2) = win2_9.index t (0 : Fin 2)
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_5.index t (0 : Fin 1) = 0
    ∧ win2_8.index t (0 : Fin 1) = 0
    ∧ win2_9.index t (1 : Fin 2) = 0 :=
  (by decide +kernel : ∀ t : Fin grid2.N, _)

/-- Every block of rows is some point's. -/
theorem idx_onto : ∀ q0 : Fin 40, ∃ t : Fin cfg2.N, win2_9.index t = ![q0.val, 0] :=
  (by decide +kernel : ∀ q0 : Fin 40, ∃ t : Fin grid2.N, win2_9.index t = ![q0.val, 0])

set_option maxHeartbeats 4000000 in
/-- What point `t` writes back is block `t` of `result`. -/
theorem flushed_eq (c : Dev nD) (t : Fin cfg2.N) :
    (dat2 (F := Ideal) V c).flushed 9 t = ((cfg2.win 9).blk t).view.read (Elt Ideal) (result V c) := by
  show (cfg2.win 9).cut (grid2.coords t) ((dat2 (F := Ideal) V c).after 9 t) = _
  rw [after2_9]
  unfold out2_9
  rw [View.canon_unit_zero hz2]
  simp only [View.ld_unit_zero (S := S5000x32) hz2, View.ld_unit_zero (S := S32x32) hz2, View.ld_unit_zero (S := S32) hz1]
  obtain ⟨e0, e1, e2, e3, e4, e5, e6, e7, e8, e9, e10, e11, e12, e13, e14, e15, e16⟩ := idx_facts t
  funext j
  obtain ⟨y, q, rfl⟩ : ∃ (y : Fin 5000) (q : Fin 32), j = ix2 y q := ⟨j 0, j 1, eq_ix2 j⟩
  show k2_pay1 (iblk2 V c 0 t) (iblk2 V c 1 t) (iblk2 V c 2 t) (iblk2 V c 3 t) (iblk2 V c 4 t) (iblk2 V c 6 t) (iblk2 V c 7 t) (iblk2 V c 5 t) (iblk2 V c 8 t) (ix2 y q) = result V c (((cfg2.win 9).blk t).view.emb (ix2 y q))
  refine (pay2_at (iblk2 V c 0 t) (iblk2 V c 1 t) (iblk2 V c 2 t) (iblk2 V c 3 t) (iblk2 V c 4 t) (iblk2 V c 6 t) (iblk2 V c 7 t) (iblk2 V c 5 t) (iblk2 V c 8 t) y q).trans ?_
  generalize hE : ((cfg2.win 9).blk t).view.emb (ix2 y q) = E
  have hE0 : (E 0).val = win2_9.index t (0 : Fin 2) * 5000 + 1 * y.val := by rw [← hE]; rfl
  have hE1 : (E 1).val = win2_9.index t (1 : Fin 2) * 32 + 1 * q.val := by rw [← hE]; rfl
  have hM1 : ∀ k : Fin 32, (iblk2 V c 0 t) (ix2 y k) = V c main_v77 (ix2 (E 0) k) := fun k => by
    show V c main_v77 (((cfg2.win 0).blk t).view.emb (ix2 y k)) = V c main_v77 (ix2 (E 0) k)
    refine congrArg (V c main_v77) (funext fun a => Fin.ext ?_)
    match a with
    | ⟨0, _⟩ => show win2_0.index t (0 : Fin 2) * 5000 + 1 * y.val = (E 0).val; omega
    | ⟨1, _⟩ => show win2_0.index t (1 : Fin 2) * 32 + 1 * k.val = k.val; omega
  have hM2 : ∀ k : Fin 32, (iblk2 V c 1 t) (ix2 y k) = V c main_v96 (ix2 (E 0) k) := fun k => by
    show V c main_v96 (((cfg2.win 1).blk t).view.emb (ix2 y k)) = V c main_v96 (ix2 (E 0) k)
    refine congrArg (V c main_v96) (funext fun a => Fin.ext ?_)
    match a with
    | ⟨0, _⟩ => show win2_1.index t (0 : Fin 2) * 5000 + 1 * y.val = (E 0).val; omega
    | ⟨1, _⟩ => show win2_1.index t (1 : Fin 2) * 32 + 1 * k.val = k.val; omega
  have hX : ∀ k : Fin 32, (iblk2 V c 2 t) (ix2 y k) = V c main_v57 (ix2 (E 0) k) := fun k => by
    show V c main_v57 (((cfg2.win 2).blk t).view.emb (ix2 y k)) = V c main_v57 (ix2 (E 0) k)
    refine congrArg (V c main_v57) (funext fun a => Fin.ext ?_)
    match a with
    | ⟨0, _⟩ => show win2_2.index t (0 : Fin 2) * 5000 + 1 * y.val = (E 0).val; omega
    | ⟨1, _⟩ => show win2_2.index t (1 : Fin 2) * 32 + 1 * k.val = k.val; omega
  have hWl1 : ∀ k : Fin 32, (iblk2 V c 3 t) (ix2 k q) = V c main_arg17 (ix2 k (E 1)) := fun k => by
    show V c main_arg17 (((cfg2.win 3).blk t).view.emb (ix2 k q)) = V c main_arg17 (ix2 k (E 1))
    refine congrArg (V c main_arg17) (funext fun a => Fin.ext ?_)
    match a with
    | ⟨0, _⟩ => show win2_3.index t (0 : Fin 2) * 32 + 1 * k.val = k.val; omega
    | ⟨1, _⟩ => show win2_3.index t (1 : Fin 2) * 32 + 1 * q.val = (E 1).val; omega
  have hWr1 : ∀ k : Fin 32, (iblk2 V c 4 t) (ix2 k q) = V c main_arg18 (ix2 k (E 1)) := fun k => by
    show V c main_arg18 (((cfg2.win 4).blk t).view.emb (ix2 k q)) = V c main_arg18 (ix2 k (E 1))
    refine congrArg (V c main_arg18) (funext fun a => Fin.ext ?_)
    match a with
    | ⟨0, _⟩ => show win2_4.index t (0 : Fin 2) * 32 + 1 * k.val = k.val; omega
    | ⟨1, _⟩ => show win2_4.index t (1 : Fin 2) * 32 + 1 * q.val = (E 1).val; omega
  have hWl2 : ∀ k : Fin 32, (iblk2 V c 6 t) (ix2 k q) = V c main_arg20 (ix2 k (E 1)) := fun k => by
    show V c main_arg20 (((cfg2.win 6).blk t).view.emb (ix2 k q)) = V c main_arg20 (ix2 k (E 1))
    refine congrArg (V c main_arg20) (funext fun a => Fin.ext ?_)
    match a with
    | ⟨0, _⟩ => show win2_6.index t (0 : Fin 2) * 32 + 1 * k.val = k.val; omega
    | ⟨1, _⟩ => show win2_6.index t (1 : Fin 2) * 32 + 1 * q.val = (E 1).val; omega
  have hWr2 : ∀ k : Fin 32, (iblk2 V c 7 t) (ix2 k q) = V c main_arg21 (ix2 k (E 1)) := fun k => by
    show V c main_arg21 (((cfg2.win 7).blk t).view.emb (ix2 k q)) = V c main_arg21 (ix2 k (E 1))
    refine congrArg (V c main_arg21) (funext fun a => Fin.ext ?_)
    match a with
    | ⟨0, _⟩ => show win2_7.index t (0 : Fin 2) * 32 + 1 * k.val = k.val; omega
    | ⟨1, _⟩ => show win2_7.index t (1 : Fin 2) * 32 + 1 * q.val = (E 1).val; omega
  have hb1 : (iblk2 V c 5 t) (ix1 q) = V c main_arg19 (ix1 (E 1)) := by
    show V c main_arg19 (((cfg2.win 5).blk t).view.emb (ix1 q)) = V c main_arg19 (ix1 (E 1))
    refine congrArg (V c main_arg19) (funext fun a => Fin.ext ?_)
    match a with
    | ⟨0, _⟩ => show win2_5.index t (0 : Fin 1) * 32 + 1 * q.val = (E 1).val; omega
  have hb2 : (iblk2 V c 8 t) (ix1 q) = V c main_arg22 (ix1 (E 1)) := by
    show V c main_arg22 (((cfg2.win 8).blk t).view.emb (ix1 q)) = V c main_arg22 (ix1 (E 1))
    refine congrArg (V c main_arg22) (funext fun a => Fin.ext ?_)
    match a with
    | ⟨0, _⟩ => show win2_8.index t (0 : Fin 1) * 32 + 1 * q.val = (E 1).val; omega
  have r1 := rel_block (N := 200000) (n := 5000) (D := 32) (V c main_v77) (V c main_v57) (iblk2 V c 0 t) (iblk2 V c 2 t) (V c main_arg17) (V c main_arg18) (iblk2 V c 3 t) (iblk2 V c 4 t) (V c main_arg19) (iblk2 V c 5 t) (E 0) y q (E 1) hM1 hX hWl1 hWr1 hb1
  have r2 := rel_block (N := 200000) (n := 5000) (D := 32) (V c main_v96) (V c main_v57) (iblk2 V c 1 t) (iblk2 V c 2 t) (V c main_arg20) (V c main_arg21) (iblk2 V c 6 t) (iblk2 V c 7 t) (V c main_arg22) (iblk2 V c 8 t) (E 0) y q (E 1) hM2 hX hWl2 hWr2 hb2
  exact congrArg₂ (fun a b : EReal => a + b) r1 r2

/-- An index of the output array is in point `t`'s block iff each coordinate is in the block's range on its axis. -/
theorem mem_blk (t : Fin cfg2.N) (i : S200000x32.Idx) :
    i ∈ ((cfg2.win 9).blk t).view.set ↔ ∀ a : Fin 2, win2_9.index t a * S5000x32.size a ≤ (i a).val ∧ (i a).val < win2_9.index t a * S5000x32.size a + S5000x32.size a := by
  show i ∈ ((View.whole main_v97).slice (win2_9.rect t)).set ↔ _
  rw [View.set_slice_whole, Rect.mem_set_unit]
  exact Iff.rfl

/-- Every entry of the output array is in some point's block: row `r` in block `r / 5000`. -/
theorem cover (i : S200000x32.Idx) :
    ∃ t : Fin cfg2.N, (cfg2.win 9).flush t = true ∧ i ∈ ((cfg2.win 9).blk t).view.set := by
  have hi0 : (i 0).val < 200000 := (i 0).isLt
  have hi1 : (i 1).val < 32 := (i 1).isLt
  obtain ⟨t, ht⟩ := idx_onto ⟨(i 0).val / 5000, by omega⟩
  have q0 : win2_9.index t (0 : Fin 2) = (i 0).val / 5000 := congrFun ht 0
  have q1 : win2_9.index t (1 : Fin 2) = 0 := congrFun ht 1
  refine ⟨t, flush2_9 t, ?_⟩
  rw [mem_blk]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 32 ≤ (i 1).val ∧ (i 1).val < win2_9.index t (1 : Fin 2) * 32 + 32; omega

/-- The output array after the region. -/
theorem final (c : Dev nD) : (dat2 (F := Ideal) V c).arrAt 9 cfg2.N = result V c :=
  (dat2 (F := Ideal) V c).arrAt_eq_of_cover 9 (result V c) (fun t _ => flushed_eq V c t) cover

end Cert.KernelIdeal.Region2

end
-- ==== Proof.RefLayers.lean ====
/-
  The reference's three layers, each read at an entry, over the extended reals.

  The reference computes a layer as plain matrix products, a bias repeated down the rows, sums, and (in the hidden
  layers) the maximum with zero. Read at node `i 0`, channel `i 1`, each matrix product is the sum over the shared axis
  and the repeated bias is the bias at the channel, so each layer is the specification's formula of the arrays it is
  applied to: the means of the neighbours' features, the destination's own features, the weights and the biases.
-/
import proofs.«103733_j25305947308177_2_alg».proof.Proof.Gen.ReferenceIdeal.Read
import proofs.«103733_j25305947308177_2_alg».proof.Proof.SageSpec

noncomputable section

open scoped BigOperators

namespace Cert.ReferenceIdeal.Layers

open Idealize.ShloMosaic Idealize.ShloMosaic.ValueIdx Cert.ReferenceIdeal Cert.ReferenceIdeal.Read Cert.Sage

/-- A rank-2 index with the given coordinates is `ix2` of them. -/
theorem idx2_eq {n0 n1 : Nat} (f : (⟨2, ![n0, n1]⟩ : Shape).Idx) {a : Fin n0} {b : Fin n1} (h0 : f 0 = a) (h1 : f 1 = b) :
    f = ix2 a b := funext fun d => by match d with | ⟨0, _⟩ => exact h0 | ⟨1, _⟩ => exact h1
/-- A rank-1 index with the given coordinate is `ix1` of it. -/
theorem idx1_eq {n : Nat} (f : (⟨1, ![n]⟩ : Shape).Idx) {a : Fin n} (h0 : f 0 = a) : f = ix1 a :=
  funext fun d => by match d with | ⟨0, _⟩ => exact h0

/-- The paper nodes' hidden layer of the reference is the two-relation formula of the two means, the papers' own features, the weights and the biases, then the maximum with zero. -/
theorem hidden_paper (x0 : (⟨S200000x64, .f32⟩ : BufTy).Contents (Elt Ideal)) (x1 : (⟨S100000x64, .f32⟩ : BufTy).Contents (Elt Ideal)) (x2 x3 x4 x5 : (⟨S1000000, .i32⟩ : BufTy).Contents (Elt Ideal)) (x8 x9 : (⟨S64x32, .f32⟩ : BufTy).Contents (Elt Ideal)) (x10 : (⟨S32, .f32⟩ : BufTy).Contents (Elt Ideal)) (x11 x12 : (⟨S64x32, .f32⟩ : BufTy).Contents (Elt Ideal)) (x13 : (⟨S32, .f32⟩ : BufTy).Contents (Elt Ideal)) :
    val_main_v51 (F := Ideal) x0 x1 x2 x3 x4 x5 x8 x9 x10 x11 x12 x13 = fun i => max (two (N := 200000) (D := 64) (val_main_v18 (F := Ideal) x0 x2 x3) (val_main_v43 (F := Ideal) x1 x4 x5) x0 x8 x9 x10 x11 x12 x13 (i 0) (i 1)) 0 := by
  funext i
  rw [val_main_v51_apply, val_main_v50_apply, val_main_v24_apply, val_main_v21_apply, val_main_v19_apply, val_main_v20_apply, val_main_v23_apply, val_main_v22_apply, val_main_v49_apply, val_main_v46_apply, val_main_v44_apply, val_main_v45_apply, val_main_v48_apply, val_main_v47_apply, val_main_call0_v0_apply, val_main_call0_cst_apply]
  have L19 : ∀ k : Fin 64, lidx_main_v19 i k = ix2 (i 0) k := fun k => idx2_eq _ rfl rfl
  have R19 : ∀ k : Fin 64, ridx_main_v19 i k = ix2 k (i 1) := fun k => idx2_eq _ rfl rfl
  have L20 : ∀ k : Fin 64, lidx_main_v20 i k = ix2 (i 0) k := fun k => idx2_eq _ rfl rfl
  have R20 : ∀ k : Fin 64, ridx_main_v20 i k = ix2 k (i 1) := fun k => idx2_eq _ rfl rfl
  have L44 : ∀ k : Fin 64, lidx_main_v44 i k = ix2 (i 0) k := fun k => idx2_eq _ rfl rfl
  have R44 : ∀ k : Fin 64, ridx_main_v44 i k = ix2 k (i 1) := fun k => idx2_eq _ rfl rfl
  have L45 : ∀ k : Fin 64, lidx_main_v45 i k = ix2 (i 0) k := fun k => idx2_eq _ rfl rfl
  have R45 : ∀ k : Fin 64, ridx_main_v45 i k = ix2 k (i 1) := fun k => idx2_eq _ rfl rfl
  have B0 : idx_main_v22 (idx_main_v23 i) = ix1 (i 1) := idx1_eq _ rfl
  have B1 : idx_main_v47 (idx_main_v48 i) = ix1 (i 1) := idx1_eq _ rfl
  simp only [L19, R19, L20, R20, L44, R44, L45, R45, B0, B1]
  rw [show (FloatOps.ofBits (F := Ideal) .f32 0x00000000#32 : EReal) = 0 from Ideal.ofBits_zero_f32]
  rfl

/-- The author nodes' hidden layer of the reference is the one-relation formula of the mean, the authors' own features, the weights and the bias, then the maximum with zero. -/
theorem hidden_author (x0 : (⟨S200000x64, .f32⟩ : BufTy).Contents (Elt Ideal)) (x1 : (⟨S100000x64, .f32⟩ : BufTy).Contents (Elt Ideal)) (x6 x7 : (⟨S1000000, .i32⟩ : BufTy).Contents (Elt Ideal)) (x14 x15 : (⟨S64x32, .f32⟩ : BufTy).Contents (Elt Ideal)) (x16 : (⟨S32, .f32⟩ : BufTy).Contents (Elt Ideal)) :
    val_main_v77 (F := Ideal) x0 x1 x6 x7 x14 x15 x16 = fun i => max (rel (N := 100000) (D := 64) (val_main_v70 (F := Ideal) x0 x6 x7) x1 x14 x15 x16 (i 0) (i 1)) 0 := by
  funext i
  rw [val_main_v77_apply, val_main_v76_apply, val_main_v73_apply, val_main_v71_apply, val_main_v72_apply, val_main_v75_apply, val_main_v74_apply, val_main_call1_v0_apply, val_main_call1_cst_apply]
  have L71 : ∀ k : Fin 64, lidx_main_v71 i k = ix2 (i 0) k := fun k => idx2_eq _ rfl rfl
  have R71 : ∀ k : Fin 64, ridx_main_v71 i k = ix2 k (i 1) := fun k => idx2_eq _ rfl rfl
  have L72 : ∀ k : Fin 64, lidx_main_v72 i k = ix2 (i 0) k := fun k => idx2_eq _ rfl rfl
  have R72 : ∀ k : Fin 64, ridx_main_v72 i k = ix2 k (i 1) := fun k => idx2_eq _ rfl rfl
  have B0 : idx_main_v74 (idx_main_v75 i) = ix1 (i 1) := idx1_eq _ rfl
  simp only [L71, R71, L72, R72, B0]
  rw [show (FloatOps.ofBits (F := Ideal) .f32 0x00000000#32 : EReal) = 0 from Ideal.ofBits_zero_f32]
  rfl

/-- The paper nodes' output layer of the reference is the two-relation formula of the two means over the hidden features, the papers' hidden features, the weights and the biases. -/
theorem out_paper (x0 : (⟨S200000x64, .f32⟩ : BufTy).Contents (Elt Ideal)) (x1 : (⟨S100000x64, .f32⟩ : BufTy).Contents (Elt Ideal)) (x2 x3 x4 x5 x6 x7 : (⟨S1000000, .i32⟩ : BufTy).Contents (Elt Ideal)) (x8 x9 : (⟨S64x32, .f32⟩ : BufTy).Contents (Elt Ideal)) (x10 : (⟨S32, .f32⟩ : BufTy).Contents (Elt Ideal)) (x11 x12 : (⟨S64x32, .f32⟩ : BufTy).Contents (Elt Ideal)) (x13 : (⟨S32, .f32⟩ : BufTy).Contents (Elt Ideal)) (x14 x15 : (⟨S64x32, .f32⟩ : BufTy).Contents (Elt Ideal)) (x16 : (⟨S32, .f32⟩ : BufTy).Contents (Elt Ideal)) (x17 x18 : (⟨S32x32, .f32⟩ : BufTy).Contents (Elt Ideal)) (x19 : (⟨S32, .f32⟩ : BufTy).Contents (Elt Ideal)) (x20 x21 : (⟨S32x32, .f32⟩ : BufTy).Contents (Elt Ideal)) (x22 : (⟨S32, .f32⟩ : BufTy).Contents (Elt Ideal)) :
    val_main_v128 (F := Ideal) x0 x1 x2 x3 x4 x5 x6 x7 x8 x9 x10 x11 x12 x13 x14 x15 x16 x17 x18 x19 x20 x21 x22 = fun i => two (N := 200000) (D := 32) (val_main_v96 (F := Ideal) x0 x1 x2 x3 x4 x5 x8 x9 x10 x11 x12 x13) (val_main_v121 (F := Ideal) x0 x1 x4 x5 x6 x7 x14 x15 x16) (val_main_v51 (F := Ideal) x0 x1 x2 x3 x4 x5 x8 x9 x10 x11 x12 x13) x17 x18 x19 x20 x21 x22 (i 0) (i 1) := by
  funext i
  rw [val_main_v128_apply, val_main_v102_apply, val_main_v99_apply, val_main_v97_apply, val_main_v98_apply, val_main_v101_apply, val_main_v100_apply, val_main_v127_apply, val_main_v124_apply, val_main_v122_apply, val_main_v123_apply, val_main_v126_apply, val_main_v125_apply]
  have L97 : ∀ k : Fin 32, lidx_main_v97 i k = ix2 (i 0) k := fun k => idx2_eq _ rfl rfl
  have R97 : ∀ k : Fin 32, ridx_main_v97 i k = ix2 k (i 1) := fun k => idx2_eq _ rfl rfl
  have L98 : ∀ k : Fin 32, lidx_main_v98 i k = ix2 (i 0) k := fun k => idx2_eq _ rfl rfl
  have R98 : ∀ k : Fin 32, ridx_main_v98 i k = ix2 k (i 1) := fun k => idx2_eq _ rfl rfl
  have L122 : ∀ k : Fin 32, lidx_main_v122 i k = ix2 (i 0) k := fun k => idx2_eq _ rfl rfl
  have R122 : ∀ k : Fin 32, ridx_main_v122 i k = ix2 k (i 1) := fun k => idx2_eq _ rfl rfl
  have L123 : ∀ k : Fin 32, lidx_main_v123 i k = ix2 (i 0) k := fun k => idx2_eq _ rfl rfl
  have R123 : ∀ k : Fin 32, ridx_main_v123 i k = ix2 k (i 1) := fun k => idx2_eq _ rfl rfl
  have B0 : idx_main_v100 (idx_main_v101 i) = ix1 (i 1) := idx1_eq _ rfl
  have B1 : idx_main_v125 (idx_main_v126 i) = ix1 (i 1) := idx1_eq _ rfl
  simp only [L97, R97, L98, R98, L122, R122, L123, R123, B0, B1]
  rfl

end Cert.ReferenceIdeal.Layers

end
-- ==== Proof.Chain.lean ====
/-
  What every buffer the regions read holds, as a function of the launch memory.

  The contents at the five boundaries of @main fold through the host stretches and the regions. An argument is never
  written, so it holds its launch contents at every boundary. The first host stretch computes the three layer-one
  means from the arguments; these are the same operations, in the same order, as the reference's, so each mean IS the
  reference's stage of the same arguments. A region's output array is its layer's formula of the arrays it found
  (the region modules), and the reference's layer is the same formula (the reference-layer module): so the hidden
  features the kernel leaves are the reference's hidden-layer stages. The second host stretch computes the two
  layer-two means from those hidden features by the reference's operations again, and the output region's array is the
  reference's last stage.
-/
import proofs.«103733_j25305947308177_2_alg».proof.Proof.Gen.KernelIdeal.Frame
import proofs.«103733_j25305947308177_2_alg».proof.Proof.Region0
import proofs.«103733_j25305947308177_2_alg».proof.Proof.Region1
import proofs.«103733_j25305947308177_2_alg».proof.Proof.Region2
import proofs.«103733_j25305947308177_2_alg».proof.Proof.RefLayers

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.ReferenceIdeal.Read Cert.Sage

variable (m : (ℓ : Loc nD τ sig) → Buf (Elt Ideal) ℓ) (ρ : Dev nD → PrngReg) (c : Dev nD)

/-- A buffer that no operation of a host stretch writes holds after the stretch what it held before: every operation's
    result buffer is another buffer. -/
macro "host_keeps" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments after the first host stretch -/

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0

theorem W1_arg1 : W1 m ρ c (Proc.devRef .tc main_arg1) = m ((c : Thread nD τ).loc main_arg1) := by
  show StableHlo.after hostOps0 (W0 m ρ c) (Proc.devRef .tc main_arg1) = W0 m ρ c (Proc.devRef .tc main_arg1)
  host_keeps hostOps0

theorem W1_arg8 : W1 m ρ c (Proc.devRef .tc main_arg8) = m ((c : Thread nD τ).loc main_arg8) := by
  show StableHlo.after hostOps0 (W0 m ρ c) (Proc.devRef .tc main_arg8) = W0 m ρ c (Proc.devRef .tc main_arg8)
  host_keeps hostOps0

theorem W1_arg9 : W1 m ρ c (Proc.devRef .tc main_arg9) = m ((c : Thread nD τ).loc main_arg9) := by
  show StableHlo.after hostOps0 (W0 m ρ c) (Proc.devRef .tc main_arg9) = W0 m ρ c (Proc.devRef .tc main_arg9)
  host_keeps hostOps0

theorem W1_arg10 : W1 m ρ c (Proc.devRef .tc main_arg10) = m ((c : Thread nD τ).loc main_arg10) := by
  show StableHlo.after hostOps0 (W0 m ρ c) (Proc.devRef .tc main_arg10) = W0 m ρ c (Proc.devRef .tc main_arg10)
  host_keeps hostOps0

theorem W1_arg11 : W1 m ρ c (Proc.devRef .tc main_arg11) = m ((c : Thread nD τ).loc main_arg11) := by
  show StableHlo.after hostOps0 (W0 m ρ c) (Proc.devRef .tc main_arg11) = W0 m ρ c (Proc.devRef .tc main_arg11)
  host_keeps hostOps0

theorem W1_arg12 : W1 m ρ c (Proc.devRef .tc main_arg12) = m ((c : Thread nD τ).loc main_arg12) := by
  show StableHlo.after hostOps0 (W0 m ρ c) (Proc.devRef .tc main_arg12) = W0 m ρ c (Proc.devRef .tc main_arg12)
  host_keeps hostOps0

theorem W1_arg13 : W1 m ρ c (Proc.devRef .tc main_arg13) = m ((c : Thread nD τ).loc main_arg13) := by
  show StableHlo.after hostOps0 (W0 m ρ c) (Proc.devRef .tc main_arg13) = W0 m ρ c (Proc.devRef .tc main_arg13)
  host_keeps hostOps0

theorem W1_arg14 : W1 m ρ c (Proc.devRef .tc main_arg14) = m ((c : Thread nD τ).loc main_arg14) := by
  show StableHlo.after hostOps0 (W0 m ρ c) (Proc.devRef .tc main_arg14) = W0 m ρ c (Proc.devRef .tc main_arg14)
  host_keeps hostOps0

theorem W1_arg15 : W1 m ρ c (Proc.devRef .tc main_arg15) = m ((c : Thread nD τ).loc main_arg15) := by
  show StableHlo.after hostOps0 (W0 m ρ c) (Proc.devRef .tc main_arg15) = W0 m ρ c (Proc.devRef .tc main_arg15)
  host_keeps hostOps0

theorem W1_arg16 : W1 m ρ c (Proc.devRef .tc main_arg16) = m ((c : Thread nD τ).loc main_arg16) := by
  show StableHlo.after hostOps0 (W0 m ρ c) (Proc.devRef .tc main_arg16) = W0 m ρ c (Proc.devRef .tc main_arg16)
  host_keeps hostOps0

theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0

theorem W1_arg3 : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0

theorem W1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0

theorem W1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0

theorem W1_arg17 : W1 m ρ c (Proc.devRef .tc main_arg17) = m ((c : Thread nD τ).loc main_arg17) := by
  show StableHlo.after hostOps0 (W0 m ρ c) (Proc.devRef .tc main_arg17) = W0 m ρ c (Proc.devRef .tc main_arg17)
  host_keeps hostOps0

theorem W1_arg18 : W1 m ρ c (Proc.devRef .tc main_arg18) = m ((c : Thread nD τ).loc main_arg18) := by
  show StableHlo.after hostOps0 (W0 m ρ c) (Proc.devRef .tc main_arg18) = W0 m ρ c (Proc.devRef .tc main_arg18)
  host_keeps hostOps0

theorem W1_arg19 : W1 m ρ c (Proc.devRef .tc main_arg19) = m ((c : Thread nD τ).loc main_arg19) := by
  show StableHlo.after hostOps0 (W0 m ρ c) (Proc.devRef .tc main_arg19) = W0 m ρ c (Proc.devRef .tc main_arg19)
  host_keeps hostOps0

theorem W1_arg20 : W1 m ρ c (Proc.devRef .tc main_arg20) = m ((c : Thread nD τ).loc main_arg20) := by
  show StableHlo.after hostOps0 (W0 m ρ c) (Proc.devRef .tc main_arg20) = W0 m ρ c (Proc.devRef .tc main_arg20)
  host_keeps hostOps0

theorem W1_arg21 : W1 m ρ c (Proc.devRef .tc main_arg21) = m ((c : Thread nD τ).loc main_arg21) := by
  show StableHlo.after hostOps0 (W0 m ρ c) (Proc.devRef .tc main_arg21) = W0 m ρ c (Proc.devRef .tc main_arg21)
  host_keeps hostOps0

theorem W1_arg22 : W1 m ρ c (Proc.devRef .tc main_arg22) = m ((c : Thread nD τ).loc main_arg22) := by
  show StableHlo.after hostOps0 (W0 m ρ c) (Proc.devRef .tc main_arg22) = W0 m ρ c (Proc.devRef .tc main_arg22)
  host_keeps hostOps0

/-! ## The three layer-one means: the reference's stages of the same arguments -/

theorem V1_v18 : V1 m ρ c main_v18 = val_main_v18 (F := Ideal) (m ((c : Thread nD τ).loc main_arg0)) (m ((c : Thread nD τ).loc main_arg2)) (m ((c : Thread nD τ).loc main_arg3)) := by
  show StableHlo.after hostOps0 (W0 m ρ c) (Proc.devRef .tc main_v18) = _
  after_results_simp
  rfl
theorem V1_v37 : V1 m ρ c main_v37 = val_main_v43 (F := Ideal) (m ((c : Thread nD τ).loc main_arg1)) (m ((c : Thread nD τ).loc main_arg4)) (m ((c : Thread nD τ).loc main_arg5)) := by
  show StableHlo.after hostOps0 (W0 m ρ c) (Proc.devRef .tc main_v37) = _
  after_results_simp
  rfl
theorem V1_v56 : V1 m ρ c main_v56 = val_main_v70 (F := Ideal) (m ((c : Thread nD τ).loc main_arg0)) (m ((c : Thread nD τ).loc main_arg6)) (m ((c : Thread nD τ).loc main_arg7)) := by
  show StableHlo.after hostOps0 (W0 m ρ c) (Proc.devRef .tc main_v56) = _
  after_results_simp
  rfl

/-! ## The hidden features: the two hidden-layer regions -/

/-- After the two hidden-layer regions the papers' hidden features are the reference's. -/
theorem W3_v57 : W3 m ρ c (Proc.devRef .tc main_v57) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W3_of_ne m ρ c main_v57 (by decide)).trans ((W2_arr m ρ c 9).trans ((Region0.final (V1 m ρ) c).trans ?_))
  refine Eq.trans ?_ (Cert.ReferenceIdeal.Layers.hidden_paper (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))).symm
  unfold Region0.result
  rw [V1_v18 m ρ c, V1_v37 m ρ c, show V1 m ρ c main_arg0 = _ from W1_arg0 m ρ c, show V1 m ρ c main_arg8 = _ from W1_arg8 m ρ c,
    show V1 m ρ c main_arg9 = _ from W1_arg9 m ρ c, show V1 m ρ c main_arg10 = _ from W1_arg10 m ρ c,
    show V1 m ρ c main_arg11 = _ from W1_arg11 m ρ c, show V1 m ρ c main_arg12 = _ from W1_arg12 m ρ c,
    show V1 m ρ c main_arg13 = _ from W1_arg13 m ρ c]

theorem V2_v56 : V2 m ρ c main_v56 = val_main_v70 (F := Ideal) (m ((c : Thread nD τ).loc main_arg0)) (m ((c : Thread nD τ).loc main_arg6)) (m ((c : Thread nD τ).loc main_arg7)) :=
  (W2_of_ne m ρ c main_v56 (by decide)).trans (V1_v56 m ρ c)
theorem V2_arg1 : V2 m ρ c main_arg1 = m ((c : Thread nD τ).loc main_arg1) :=
  (W2_of_ne m ρ c main_arg1 (by decide)).trans (W1_arg1 m ρ c)
theorem V2_arg14 : V2 m ρ c main_arg14 = m ((c : Thread nD τ).loc main_arg14) :=
  (W2_of_ne m ρ c main_arg14 (by decide)).trans (W1_arg14 m ρ c)
theorem V2_arg15 : V2 m ρ c main_arg15 = m ((c : Thread nD τ).loc main_arg15) :=
  (W2_of_ne m ρ c main_arg15 (by decide)).trans (W1_arg15 m ρ c)
theorem V2_arg16 : V2 m ρ c main_arg16 = m ((c : Thread nD τ).loc main_arg16) :=
  (W2_of_ne m ρ c main_arg16 (by decide)).trans (W1_arg16 m ρ c)

/-- After the two hidden-layer regions the authors' hidden features are the reference's. -/
theorem W3_v58 : W3 m ρ c (Proc.devRef .tc main_v58) = val_main_v77 (F := Ideal) (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16)) := by
  refine (W3_arr m ρ c 5).trans ((Region1.final (V2 m ρ) c).trans ?_)
  refine Eq.trans ?_ (Cert.ReferenceIdeal.Layers.hidden_author (m ((c : Thread nD τ).loc main_arg0)) (m ((c : Thread nD τ).loc main_arg1)) (m ((c : Thread nD τ).loc main_arg6)) (m ((c : Thread nD τ).loc main_arg7)) (m ((c : Thread nD τ).loc main_arg14)) (m ((c : Thread nD τ).loc main_arg15)) (m ((c : Thread nD τ).loc main_arg16))).symm
  unfold Region1.result
  rw [V2_v56 m ρ c, V2_arg1 m ρ c, V2_arg14 m ρ c, V2_arg15 m ρ c, V2_arg16 m ρ c]

/-! ## The arguments after the hidden-layer regions -/
theorem W3_arg2 : W3 m ρ c (Proc.devRef .tc main_arg2) = m ((c : Thread nD τ).loc main_arg2) :=
  (W3_of_ne m ρ c main_arg2 (by decide)).trans ((W2_of_ne m ρ c main_arg2 (by decide)).trans (W1_arg2 m ρ c))
theorem W3_arg3 : W3 m ρ c (Proc.devRef .tc main_arg3) = m ((c : Thread nD τ).loc main_arg3) :=
  (W3_of_ne m ρ c main_arg3 (by decide)).trans ((W2_of_ne m ρ c main_arg3 (by decide)).trans (W1_arg3 m ρ c))
theorem W3_arg4 : W3 m ρ c (Proc.devRef .tc main_arg4) = m ((c : Thread nD τ).loc main_arg4) :=
  (W3_of_ne m ρ c main_arg4 (by decide)).trans ((W2_of_ne m ρ c main_arg4 (by decide)).trans (W1_arg4 m ρ c))
theorem W3_arg5 : W3 m ρ c (Proc.devRef .tc main_arg5) = m ((c : Thread nD τ).loc main_arg5) :=
  (W3_of_ne m ρ c main_arg5 (by decide)).trans ((W2_of_ne m ρ c main_arg5 (by decide)).trans (W1_arg5 m ρ c))
theorem W3_arg17 : W3 m ρ c (Proc.devRef .tc main_arg17) = m ((c : Thread nD τ).loc main_arg17) :=
  (W3_of_ne m ρ c main_arg17 (by decide)).trans ((W2_of_ne m ρ c main_arg17 (by decide)).trans (W1_arg17 m ρ c))
theorem W3_arg18 : W3 m ρ c (Proc.devRef .tc main_arg18) = m ((c : Thread nD τ).loc main_arg18) :=
  (W3_of_ne m ρ c main_arg18 (by decide)).trans ((W2_of_ne m ρ c main_arg18 (by decide)).trans (W1_arg18 m ρ c))
theorem W3_arg19 : W3 m ρ c (Proc.devRef .tc main_arg19) = m ((c : Thread nD τ).loc main_arg19) :=
  (W3_of_ne m ρ c main_arg19 (by decide)).trans ((W2_of_ne m ρ c main_arg19 (by decide)).trans (W1_arg19 m ρ c))
theorem W3_arg20 : W3 m ρ c (Proc.devRef .tc main_arg20) = m ((c : Thread nD τ).loc main_arg20) :=
  (W3_of_ne m ρ c main_arg20 (by decide)).trans ((W2_of_ne m ρ c main_arg20 (by decide)).trans (W1_arg20 m ρ c))
theorem W3_arg21 : W3 m ρ c (Proc.devRef .tc main_arg21) = m ((c : Thread nD τ).loc main_arg21) :=
  (W3_of_ne m ρ c main_arg21 (by decide)).trans ((W2_of_ne m ρ c main_arg21 (by decide)).trans (W1_arg21 m ρ c))
theorem W3_arg22 : W3 m ρ c (Proc.devRef .tc main_arg22) = m ((c : Thread nD τ).loc main_arg22) :=
  (W3_of_ne m ρ c main_arg22 (by decide)).trans ((W2_of_ne m ρ c main_arg22 (by decide)).trans (W1_arg22 m ρ c))

/-! ## The two layer-two means and what else the output region reads -/

theorem V4_v77 : V4 m ρ c main_v77 = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps2 (W3 m ρ c) (Proc.devRef .tc main_v77) = _
  after_results_simp
  rw [W3_v57 m ρ c, W3_arg2 m ρ c, W3_arg3 m ρ c]
  rfl
theorem V4_v96 : V4 m ρ c main_v96 = val_main_v121 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg14)) (m ((c : Thread nD τ).loc main_arg15)) (m ((c : Thread nD τ).loc main_arg16)) := by
  show StableHlo.after hostOps2 (W3 m ρ c) (Proc.devRef .tc main_v96) = _
  after_results_simp
  rw [W3_v58 m ρ c, W3_arg4 m ρ c, W3_arg5 m ρ c]
  rfl
theorem V4_v57 : V4 m ρ c main_v57 = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine Eq.trans ?_ (W3_v57 m ρ c)
  show StableHlo.after hostOps2 (W3 m ρ c) (Proc.devRef .tc main_v57) = W3 m ρ c (Proc.devRef .tc main_v57)
  host_keeps hostOps2
theorem V4_arg17 : V4 m ρ c main_arg17 = m ((c : Thread nD τ).loc main_arg17) := by
  refine Eq.trans ?_ (W3_arg17 m ρ c)
  show StableHlo.after hostOps2 (W3 m ρ c) (Proc.devRef .tc main_arg17) = W3 m ρ c (Proc.devRef .tc main_arg17)
  host_keeps hostOps2
theorem V4_arg18 : V4 m ρ c main_arg18 = m ((c : Thread nD τ).loc main_arg18) := by
  refine Eq.trans ?_ (W3_arg18 m ρ c)
  show StableHlo.after hostOps2 (W3 m ρ c) (Proc.devRef .tc main_arg18) = W3 m ρ c (Proc.devRef .tc main_arg18)
  host_keeps hostOps2
theorem V4_arg19 : V4 m ρ c main_arg19 = m ((c : Thread nD τ).loc main_arg19) := by
  refine Eq.trans ?_ (W3_arg19 m ρ c)
  show StableHlo.after hostOps2 (W3 m ρ c) (Proc.devRef .tc main_arg19) = W3 m ρ c (Proc.devRef .tc main_arg19)
  host_keeps hostOps2
theorem V4_arg20 : V4 m ρ c main_arg20 = m ((c : Thread nD τ).loc main_arg20) := by
  refine Eq.trans ?_ (W3_arg20 m ρ c)
  show StableHlo.after hostOps2 (W3 m ρ c) (Proc.devRef .tc main_arg20) = W3 m ρ c (Proc.devRef .tc main_arg20)
  host_keeps hostOps2
theorem V4_arg21 : V4 m ρ c main_arg21 = m ((c : Thread nD τ).loc main_arg21) := by
  refine Eq.trans ?_ (W3_arg21 m ρ c)
  show StableHlo.after hostOps2 (W3 m ρ c) (Proc.devRef .tc main_arg21) = W3 m ρ c (Proc.devRef .tc main_arg21)
  host_keeps hostOps2
theorem V4_arg22 : V4 m ρ c main_arg22 = m ((c : Thread nD τ).loc main_arg22) := by
  refine Eq.trans ?_ (W3_arg22 m ρ c)
  show StableHlo.after hostOps2 (W3 m ρ c) (Proc.devRef .tc main_arg22) = W3 m ρ c (Proc.devRef .tc main_arg22)
  host_keeps hostOps2

/-! ## The result -/

/-- After the last region the result buffer holds the reference's last stage of the launch arguments. -/
theorem value : W5 m ρ c (Proc.devRef .tc main_v97) = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  refine (W5_arr m ρ c 9).trans ((Region2.final (V4 m ρ) c).trans ?_)
  refine Eq.trans ?_ (Cert.ReferenceIdeal.Layers.out_paper (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))).symm
  unfold Region2.result
  rw [V4_v77 m ρ c, V4_v96 m ρ c, V4_v57 m ρ c, V4_arg17 m ρ c, V4_arg18 m ρ c, V4_arg19 m ρ c, V4_arg20 m ρ c,
    V4_arg21 m ρ c, V4_arg22 m ρ c]

end Cert.KernelIdeal.Chain

end
-- ==== Proof.lean ====
/-
  The certificate of a two-layer message-passing network over a graph of papers and authors: the kernel (three dense
  combine regions among host stretches that gather, sum and average the neighbours' features) against the reference
  (the same network written with plain matrix products).

  Layer by layer both programs compute, for every destination node and output channel,
      (mean of the neighbours' features · Wl) + (the node's own features · Wr) + b,
  summed over the relations that reach the node's type, with the maximum with zero after the hidden layer. The means are
  computed by the same host operations in both programs; the kernel's dense part differs from the reference's only in
  casting the operands of its products to a narrower format (the identity over the extended reals), in computing the
  output block by block of 5000 nodes, and in adding a two-relation layer's six terms from the left where the reference
  adds the two relations' triples first. Addition of extended reals is associative, so the results are equal, entry by
  entry, for all inputs: the precondition is not used.

  The three frames are the generated ones (the reference's is its generated run with the result dropped); the ideal pass
  rewrote nothing, so `preserves` is trivial.
-/
import proofs.«103733_j25305947308177_2_alg».proof.Defs
import proofs.«103733_j25305947308177_2_alg».proof.Proof.Gen.Kernel
import proofs.«103733_j25305947308177_2_alg».proof.Proof.Gen.Kernel.Skeleton
import proofs.«103733_j25305947308177_2_alg».proof.Proof.Gen.Kernel.Launch
import proofs.«103733_j25305947308177_2_alg».proof.Proof.Gen.Kernel.Points
import proofs.«103733_j25305947308177_2_alg».proof.Proof.Gen.Kernel.Frame
import proofs.«103733_j25305947308177_2_alg».proof.Proof.Gen.KernelIdeal
import proofs.«103733_j25305947308177_2_alg».proof.Proof.Gen.KernelIdeal.Skeleton
import proofs.«103733_j25305947308177_2_alg».proof.Proof.Gen.KernelIdeal.Launch
import proofs.«103733_j25305947308177_2_alg».proof.Proof.Gen.KernelIdeal.Points
import proofs.«103733_j25305947308177_2_alg».proof.Proof.Gen.KernelIdeal.Frame
import proofs.«103733_j25305947308177_2_alg».proof.Proof.Gen.ReferenceIdeal
import proofs.«103733_j25305947308177_2_alg».proof.Proof.Gen.Pre_finite_inputs
import proofs.«103733_j25305947308177_2_alg».proof.Proof.Gen.ReferenceIdeal.Run
import proofs.«103733_j25305947308177_2_alg».proof.Proof.Gen.ReferenceIdeal.Read
import proofs.«103733_j25305947308177_2_alg».proof.Proof.KernelRun
import proofs.«103733_j25305947308177_2_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals both programs end with the same result: the kernel's result buffer holds the reference's
    last stage of the kernel's arguments, the reference's holds that stage of its own arguments, and the arguments agree. -/
theorem algebraic : Cert.algebraic_KernelIdeal_ReferenceIdeal := by
  intro m ρ m' ρ' _ hagree
  refine ⟨fun c => Cert.KernelIdeal.Gen.W5 m ρ c (Proc.devRef .tc Cert.KernelIdeal.main_v97),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  have hv := Cert.KernelIdeal.Chain.value m ρ c
  obtain ⟨h0, h1, h2, h3, h4, h5, h6, h7, h8, h9, h10, h11, h12, h13, h14, h15, h16, h17, h18, h19, h20, h21, h22, h23, h24, h25⟩ := hagree c
  rw [Cert.ReferenceIdeal.Read.val_main_v128_eq, h0, h1, h2, h3, h4, h5, h6, h7, h8, h9, h10, h11, h12, h13, h14, h15, h16, h17, h18, h19, h20, h21, h22]
  exact hv.symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
